-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S1 .f32) (main_arg9 : FVec F S256x128 .f32) (main_arg10 : FVec F S128 .f32) (main_arg11 : FVec F S128x128 .f32) (main_arg12 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : FVec F S50000x3 .f32) (main_arg2 : IVec S2x800000 32) (main_arg3 : FVec F S257x128 .f32) (main_arg4 : FVec F S128 .f32) (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S4000x128 : Shape := ⟨2, ![4000, 128]⟩
abbrev S4000x3 : Shape := ⟨2, ![4000, 3]⟩
abbrev S4000 : Shape := ⟨1, ![4000]⟩
abbrev S4000x1 : Shape := ⟨2, ![4000, 1]⟩
abbrev S1x1 : Shape := ⟨2, ![1, 1]⟩
abbrev S5000x128 : Shape := ⟨2, ![5000, 128]⟩

abbrev nBuf : Space → Nat
  | .hbm => 75
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x3, .f32⟩
  | .hbm, ⟨54, _⟩ => ⟨S800000x3, .f32⟩
  | .hbm, ⟨55, _⟩ => ⟨S128x128, .f32⟩
  | .hbm, ⟨56, _⟩ => ⟨S128x128, .f32⟩
  | .hbm, ⟨57, _⟩ => ⟨S1x128, .f32⟩
  | .hbm, ⟨58, _⟩ => ⟨S800000x128, .f32⟩
  | .hbm, ⟨59, _⟩ => ⟨S800000x3, .f32⟩
  | .hbm, ⟨60, _⟩ => ⟨S_, .f32⟩
  | .hbm, ⟨61, _⟩ => ⟨S50000x3, .f32⟩
  | .hbm, ⟨62, _⟩ => ⟨S800000x1, .i32⟩
  | .hbm, ⟨63, _⟩ => ⟨S50000x3, .f32⟩
  | .hbm, ⟨64, _⟩ => ⟨S_, .f32⟩
  | .hbm, ⟨65, _⟩ => ⟨S50000x3, .f32⟩
  | .hbm, ⟨66, _⟩ => ⟨S50000x3, .f32⟩
  | .hbm, ⟨67, _⟩ => ⟨S50000x3, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S128x128, .f32⟩
  | .hbm, ⟨73, _⟩ => ⟨S128x128, .f32⟩
  | .hbm, ⟨74, _⟩ => ⟨S50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x3, .f32⟩
  | .local _ .vmem, ⟨5, _⟩ => ⟨S4000x3, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x1, .f32⟩
  | .local _ .vmem, ⟨13, _⟩ => ⟨S1, .f32⟩
  | .local _ .vmem, ⟨14, _⟩ => ⟨S4000x128, .f32⟩
  | .local _ .vmem, ⟨15, _⟩ => ⟨S4000x128, .f32⟩
  | .local _ .vmem, ⟨16, _⟩ => ⟨S4000x3, .f32⟩
  | .local _ .vmem, ⟨17, _⟩ => ⟨S4000x3, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S4000x1_S4000x1 : S4000x1.ShapeCasts S4000x1
  broadcasts_S4000x1_S4000x128 : S4000x1.Broadcasts S4000x128
  broadcasts_S1x128_S4000x128 : S1x128.Broadcasts S4000x128
  inb_S128_S128_0 : ∀ a, (![0] : Fin 1 → Nat) a + S128.size a ≤ S128.size a
  h_S128 : 0 < S128.numel
  shapeCasts_S128_S1x128 : S128.ShapeCasts S1x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  broadcasts_S4000x1_S4000x3 : S4000x1.Broadcasts S4000x3
  bcast_S_S50000x3 : S_.BroadcastsInDim S50000x3 (![] : Fin 0 → Fin S50000x3.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x3_S800000x1_S800000x3_1_0_0_1_wf : ScatterDims.WF S50000x3 S800000x1 S800000x3 [1] [0] [0] 1
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .bf16 = 32 ∨ (Rect.block (s := S800000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .bf16 = 32 ∨ (Rect.block (s := S800000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S800000x3.size a
  hwx0_2 : ∀ i : grid0.Coords, EltTy.bits .f32 = 32 ∨ (Rect.block (s := S800000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S800000x128.size a
  hwx0_11 : ∀ i : grid0.Coords, EltTy.bits .f32 = 32 ∨ (Rect.block (s := S800000x128) S4000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x3.size a ≤ S800000x3.size a
  hwx0_12 : ∀ i : grid0.Coords, EltTy.bits .f32 = 32 ∨ (Rect.block (s := S800000x3) S4000x3.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37_0) S4000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v37_1) S4000x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S800000x257 : Shape := ⟨2, ![800000, 257]⟩
abbrev S1x128 : Shape := ⟨2, ![1, 128]⟩
abbrev S1x1 : Shape := ⟨2, ![1, 1]⟩
abbrev S50000x256 : Shape := ⟨2, ![50000, 256]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x3, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x3, .f32⟩
  | .hbm, ⟨53, _⟩ => ⟨S800000x3, .f32⟩
  | .hbm, ⟨54, _⟩ => ⟨S800000x3, .f32⟩
  | .hbm, ⟨55, _⟩ => ⟨S_, .f32⟩
  | .hbm, ⟨56, _⟩ => ⟨S800000, .f32⟩
  | .hbm, ⟨57, _⟩ => ⟨S800000x1, .f32⟩
  | .hbm, ⟨58, _⟩ => ⟨S800000x257, .f32⟩
  | .hbm, ⟨59, _⟩ => ⟨S800000x128, .f32⟩
  | .hbm, ⟨60, _⟩ => ⟨S1x128, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S800000x128, .f32⟩
  | .hbm, ⟨65, _⟩ => ⟨S800000x128, .f32⟩
  | .hbm, ⟨66, _⟩ => ⟨S800000x128, .f32⟩
  | .hbm, ⟨67, _⟩ => ⟨S1x128, .f32⟩
  | .hbm, ⟨68, _⟩ => ⟨S800000x128, .f32⟩
  | .hbm, ⟨69, _⟩ => ⟨S800000x128, .f32⟩
  | .hbm, ⟨70, _⟩ => ⟨S800000x1, .f32⟩
  | .hbm, ⟨71, _⟩ => ⟨S1x1, .f32⟩
  | .hbm, ⟨72, _⟩ => ⟨S800000x1, .f32⟩
  | .hbm, ⟨73, _⟩ => ⟨S800000x1, .f32⟩
  | .hbm, ⟨74, _⟩ => ⟨S800000x3, .f32⟩
  | .hbm, ⟨75, _⟩ => ⟨S800000x3, .f32⟩
  | .hbm, ⟨76, _⟩ => ⟨S_, .f32⟩
  | .hbm, ⟨77, _⟩ => ⟨S50000x3, .f32⟩
  | .hbm, ⟨78, _⟩ => ⟨S800000x1, .i32⟩
  | .hbm, ⟨79, _⟩ => ⟨S50000x3, .f32⟩
  | .hbm, ⟨80, _⟩ => ⟨S_, .f32⟩
  | .hbm, ⟨81, _⟩ => ⟨S50000x3, .f32⟩
  | .hbm, ⟨82, _⟩ => ⟨S50000x3, .f32⟩
  | .hbm, ⟨83, _⟩ => ⟨S50000x3, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S50000x256, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call0_cst : Ref sig .tc := ⟨.hbm, 63, rfl⟩
abbrev main_call0_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call1_cst : Ref sig .tc := ⟨.hbm, 93, rfl⟩
abbrev main_call1_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/- The idealized kernel's run with its two result arrays named.
   At the compiled mesh, from any memory with zero counters, every weakly fair execution of @main on the
   TensorCores terminates, nothing faulting, and in every final state the two result buffers hold what the fold
   through @main's four segments (host stretch, edge region, host stretch, node region) leaves in them at the
   last boundary, while the thirteen argument arrays are as launched.  The last thread state owns every
   unscoped buffer at the last boundary's contents; read against the final state it gives the final contents of
   every such buffer, of which the two results are kept as they stand and each argument is walked back through
   the fold to the launch memory (no host operation and no region writes an argument). -/
import proofs.«100272_j18708877542146_2_alg».proof.Proof.Gen.KernelIdeal.Launch
import proofs.«100272_j18708877542146_2_alg».proof.Proof.Gen.KernelIdeal.Skeleton
import proofs.«100272_j18708877542146_2_alg».proof.Proof.Gen.KernelIdeal.Points
import proofs.«100272_j18708877542146_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without fault, and its final state holds, on every core, the
    two results at the last boundary's contents and the thirteen arguments as launched. -/
theorem run_values : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.ValueRun

end
-- ==== Proof.HostEntry.lean ====
/-
  What the edge layer finds in its eleven input arrays.

  The program first prepares the edge layer's inputs on the host. From the edge list (a [2, E] array of node
  numbers, E = 800000) it takes the row of source nodes and the row of destination nodes, brings each node
  number into range (a negative number is increased by the node count N = 50000), and gathers, for every edge,
  the feature row of its destination node, the feature row of its source node, and the coordinate row of each
  of the two, whose difference (destination minus source) is the edge's displacement. The feature rows are
  gathered from the feature array after a change of float format, which over the extended reals is the
  identity. The [257, 128] first weight array is cut into its rows 0 … 127, its rows 128 … 255 and its row 256.
  The remaining five inputs are argument arrays, which no host operation writes.

  This module states these eleven facts about the buffer contents at the entry of the first region, for every
  launch memory, generator state and device. The three gathered arrays are stated as EQUAL TO THE REFERENCE
  PROGRAM'S corresponding stages — the reference performs the same slices, the same
  normalisation of the node numbers and the same gathers on the same arguments —, so that no gather is ever
  evaluated: the two sides are the same operations of equal operands, and the only thing to prove is that the
  index columns agree, which they do operation by operation.
-/
import proofs.«100272_j18708877542146_2_alg».proof.Proof.Gen.KernelIdeal.Frame
import proofs.«100272_j18708877542146_2_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.HostEntry

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## The gathered rows

Each is a gather from an argument array at an index column computed from the edge list. The reference program
computes the same column by the same operations (slice a row of the edge list, flatten it, compare with 0, add
N, select, add a unit axis); the two columns are equal term by term, and the gathers are then equal as the
same operation of equal operands. -/

set_option maxHeartbeats 1000000 in
/-- The feature rows of the destination nodes: the reference's gather at the destination column (the change of
    float format of the gathered array is the identity). -/
theorem entry_hi : (V1 m ρ c main_v18 : Cert.ReferenceIdeal.S800000x128.Idx → EReal)
    = Cert.ReferenceIdeal.Read.val_main_v17 (F := Ideal) (m ((c : Thread nD τ).loc main_arg0)) (m ((c : Thread nD τ).loc main_arg2)) := by
  show StableHlo.after hostOps0 (W0 m ρ c) (Proc.devRef .tc main_v18) = _
  dsimp only [hostOps0]
  after_results
  unfold Cert.ReferenceIdeal.Read.val_main_v17
  refine congrArg (fun I : Cert.ReferenceIdeal.S800000x1.Idx → BitVec 32 =>
    Host.gather Cert.ReferenceIdeal.gather_S50000x128_S800000x1_S800000x128_1_0_n_n_0_1_1128
      (m ((c : Thread nD τ).loc main_arg0) : Cert.ReferenceIdeal.S50000x128.Idx → EReal) I) ?_
  unfold Cert.ReferenceIdeal.Read.val_main_v16
    Cert.ReferenceIdeal.Read.val_main_v15
    Cert.ReferenceIdeal.Read.val_main_v12
    Cert.ReferenceIdeal.Read.val_main_v14
    Cert.ReferenceIdeal.Read.val_main_v11
    Cert.ReferenceIdeal.Read.val_main_v13
    Cert.ReferenceIdeal.Read.val_main_c_1
    Cert.ReferenceIdeal.Read.val_main_c_2
    Cert.ReferenceIdeal.Read.val_main_v3
    Cert.ReferenceIdeal.Read.val_main_v2
  rfl

set_option maxHeartbeats 1000000 in
/-- The feature rows of the source nodes: the reference's gather at the source column. -/
theorem entry_hj : (V1 m ρ c main_v11 : Cert.ReferenceIdeal.S800000x128.Idx → EReal)
    = Cert.ReferenceIdeal.Read.val_main_v10 (F := Ideal) (m ((c : Thread nD τ).loc main_arg0)) (m ((c : Thread nD τ).loc main_arg2)) := by
  show StableHlo.after hostOps0 (W0 m ρ c) (Proc.devRef .tc main_v11) = _
  dsimp only [hostOps0]
  after_results
  unfold Cert.ReferenceIdeal.Read.val_main_v10
  refine congrArg (fun I : Cert.ReferenceIdeal.S800000x1.Idx → BitVec 32 =>
    Host.gather Cert.ReferenceIdeal.gather_S50000x128_S800000x1_S800000x128_1_0_n_n_0_1_1128
      (m ((c : Thread nD τ).loc main_arg0) : Cert.ReferenceIdeal.S50000x128.Idx → EReal) I) ?_
  unfold Cert.ReferenceIdeal.Read.val_main_v9
    Cert.ReferenceIdeal.Read.val_main_v8
    Cert.ReferenceIdeal.Read.val_main_v5
    Cert.ReferenceIdeal.Read.val_main_v7
    Cert.ReferenceIdeal.Read.val_main_v4
    Cert.ReferenceIdeal.Read.val_main_v6
    Cert.ReferenceIdeal.Read.val_main_c
    Cert.ReferenceIdeal.Read.val_main_c_0
    Cert.ReferenceIdeal.Read.val_main_v1
    Cert.ReferenceIdeal.Read.val_main_v0
  rfl

set_option maxHeartbeats 2000000 in
/-- The displacement of every edge: the destination node's coordinates minus the source node's, the
    reference's difference of its two coordinate gathers. -/
theorem entry_dist : (V1 m ρ c main_v33 : Cert.ReferenceIdeal.S800000x3.Idx → EReal)
    = Cert.ReferenceIdeal.Read.val_main_v32 (F := Ideal) (m ((c : Thread nD τ).loc main_arg1)) (m ((c : Thread nD τ).loc main_arg2)) := by
  show StableHlo.after hostOps0 (W0 m ρ c) (Proc.devRef .tc main_v33) = _
  dsimp only [hostOps0]
  after_results
  unfold Cert.ReferenceIdeal.Read.val_main_v32 Cert.ReferenceIdeal.Read.val_main_v24 Cert.ReferenceIdeal.Read.val_main_v31
  refine congrArg₂ (fun I J : Cert.ReferenceIdeal.S800000x1.Idx → BitVec 32 =>
    subf (F := Ideal) (s := Cert.ReferenceIdeal.S800000x3) (φ := .f32)
      (Host.gather Cert.ReferenceIdeal.gather_S50000x3_S800000x1_S800000x3_1_0_n_n_0_1_13
        (m ((c : Thread nD τ).loc main_arg1) : Cert.ReferenceIdeal.S50000x3.Idx → EReal) I)
      (Host.gather Cert.ReferenceIdeal.gather_S50000x3_S800000x1_S800000x3_1_0_n_n_0_1_13
        (m ((c : Thread nD τ).loc main_arg1) : Cert.ReferenceIdeal.S50000x3.Idx → EReal) J)) ?_ ?_
  · unfold Cert.ReferenceIdeal.Read.val_main_v23
      Cert.ReferenceIdeal.Read.val_main_v22
      Cert.ReferenceIdeal.Read.val_main_v19
      Cert.ReferenceIdeal.Read.val_main_v21
      Cert.ReferenceIdeal.Read.val_main_v18
      Cert.ReferenceIdeal.Read.val_main_v20
      Cert.ReferenceIdeal.Read.val_main_c_3
      Cert.ReferenceIdeal.Read.val_main_c_4
      Cert.ReferenceIdeal.Read.val_main_v3
      Cert.ReferenceIdeal.Read.val_main_v2
    rfl
  · unfold Cert.ReferenceIdeal.Read.val_main_v30
      Cert.ReferenceIdeal.Read.val_main_v29
      Cert.ReferenceIdeal.Read.val_main_v26
      Cert.ReferenceIdeal.Read.val_main_v28
      Cert.ReferenceIdeal.Read.val_main_v25
      Cert.ReferenceIdeal.Read.val_main_v27
      Cert.ReferenceIdeal.Read.val_main_c_5
      Cert.ReferenceIdeal.Read.val_main_c_6
      Cert.ReferenceIdeal.Read.val_main_v1
      Cert.ReferenceIdeal.Read.val_main_v0
    rfl

/-! ## The three row blocks of the first edge weight

The [257, 128] weight array is read in three slices: rows 0 … 127, rows 128 … 255 and row 256. -/

theorem v34_term : (V1 m ρ c main_v34 : S128x128.Idx → EReal)
    = extractStridedSlice S128x128 ![0, 0] (m ((c : Thread nD τ).loc main_arg3) : S257x128.Idx → EReal) slices_S257x128_S128x128_0_0 := by
  show StableHlo.after hostOps0 (W0 m ρ c) (Proc.devRef .tc main_v34) = _
  dsimp only [hostOps0]
  after_results

theorem v35_term : (V1 m ρ c main_v35 : S128x128.Idx → EReal)
    = extractStridedSlice S128x128 ![128, 0] (m ((c : Thread nD τ).loc main_arg3) : S257x128.Idx → EReal) slices_S257x128_S128x128_128_0 := by
  show StableHlo.after hostOps0 (W0 m ρ c) (Proc.devRef .tc main_v35) = _
  dsimp only [hostOps0]
  after_results

theorem v36_term : (V1 m ρ c main_v36 : S1x128.Idx → EReal)
    = extractStridedSlice S1x128 ![256, 0] (m ((c : Thread nD τ).loc main_arg3) : S257x128.Idx → EReal) slices_S257x128_S1x128_256_0 := by
  show StableHlo.after hostOps0 (W0 m ρ c) (Proc.devRef .tc main_v36) = _
  dsimp only [hostOps0]
  after_results

/-- Rows 0 … 127 of the weight array. -/
theorem entry_w1a (k j : Fin 128) :
    (V1 m ρ c main_v34 : S128x128.Idx → EReal) (ValueIdx.ix2 k j)
      = (m ((c : Thread nD τ).loc main_arg3) : S257x128.Idx → EReal) (ValueIdx.ix2 ⟨k.val, by have := k.isLt; omega⟩ j) := by
  refine (congrFun (v34_term m ρ c) _).trans ?_
  exact extractStridedSlice_apply ![0, 0] (m ((c : Thread nD τ).loc main_arg3) : S257x128.Idx → EReal)
    slices_S257x128_S128x128_0_0 (ValueIdx.ix2 k j) (ValueIdx.ix2 ⟨k.val, by have := k.isLt; omega⟩ j) (fun a => match a with
      | ⟨0, _⟩ => by show k.val = 0 + k.val; omega
      | ⟨1, _⟩ => by show j.val = 0 + j.val; omega)

/-- Rows 128 … 255 of the weight array. -/
theorem entry_w1b (k j : Fin 128) :
    (V1 m ρ c main_v35 : S128x128.Idx → EReal) (ValueIdx.ix2 k j)
      = (m ((c : Thread nD τ).loc main_arg3) : S257x128.Idx → EReal) (ValueIdx.ix2 ⟨128 + k.val, by have := k.isLt; omega⟩ j) := by
  refine (congrFun (v35_term m ρ c) _).trans ?_
  exact extractStridedSlice_apply ![128, 0] (m ((c : Thread nD τ).loc main_arg3) : S257x128.Idx → EReal)
    slices_S257x128_S128x128_128_0 (ValueIdx.ix2 k j) (ValueIdx.ix2 ⟨128 + k.val, by have := k.isLt; omega⟩ j) (fun a => match a with
      | ⟨0, _⟩ => by show 128 + k.val = 128 + k.val; omega
      | ⟨1, _⟩ => by show j.val = 0 + j.val; omega)

/-- Row 256 of the weight array. -/
theorem entry_w1c (j : Fin 128) :
    (V1 m ρ c main_v36 : S1x128.Idx → EReal) (ValueIdx.ix2 (0 : Fin 1) j)
      = (m ((c : Thread nD τ).loc main_arg3) : S257x128.Idx → EReal) (ValueIdx.ix2 ⟨256, by omega⟩ j) := by
  refine (congrFun (v36_term m ρ c) _).trans ?_
  exact extractStridedSlice_apply ![256, 0] (m ((c : Thread nD τ).loc main_arg3) : S257x128.Idx → EReal)
    slices_S257x128_S1x128_256_0 (ValueIdx.ix2 (0 : Fin 1) j) (ValueIdx.ix2 ⟨256, by omega⟩ j) (fun a => match a with
      | ⟨0, _⟩ => by show 256 = 256 + (0 : Fin 1).val; rfl
      | ⟨1, _⟩ => by show j.val = 0 + j.val; omega)

/-! ## The remaining inputs of the edge layer

No host operation writes an argument array: the region finds it as launched. -/

theorem entry_arg4 : V1 m ρ c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem entry_arg5 : V1 m ρ c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem entry_arg6 : V1 m ρ c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem entry_arg7 : V1 m ρ c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem entry_arg8 : V1 m ρ c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.HostEntry

end
-- ==== Proof.HostMiddle.lean ====
/- The host stretch between the two regions of the idealized kernel's @main, and its exit, read as values.
   Write x0 … x12 for the launch contents of the thirteen arguments on a core, M for the array the edge region
   leaves in its first output (the messages, one row per edge) and Vc for the array it leaves in its second output
   (the weighted coordinate differences, one row per edge).  Then:
   * the first result is the array the node region leaves in its output, and the second result is
     x1 + (the rows of Vc summed into their destination nodes, from zero) · κ, κ the broadcast scalar constant;
   * the node region is entered with x0, x10, x11, x12 in its argument windows, with the rows of M summed into
     their destination nodes (from zero) in its aggregate window, and with rows 0 … 127 and 128 … 255 of x9 in its two
     weight windows.
   The destination of an edge is row 1 of x2 reshaped to a column, the same term as in the reference program;
   no gather or accumulation is ever opened: equal operations of equal operands. -/
import proofs.«100272_j18708877542146_2_alg».proof.Proof.Gen.KernelIdeal.Launch
import proofs.«100272_j18708877542146_2_alg».proof.Proof.Gen.KernelIdeal.Skeleton
import proofs.«100272_j18708877542146_2_alg».proof.Proof.Gen.KernelIdeal.Points
import proofs.«100272_j18708877542146_2_alg».proof.Proof.Gen.KernelIdeal.Frame
import proofs.«100272_j18708877542146_2_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.HostMiddle

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## The exit and the edge region's outputs -/

/-- The first result is the array the node region leaves in its output window. -/
theorem out_h : W4 m ρ c (Proc.devRef .tc main_v49) = (dat1 (V3 m ρ) c).arrAt 7 cfg1.N := W4_arr m ρ c 7

/-- Between the regions the edge region's first output holds the array that region leaves there. -/
theorem mid_msgs : W2 m ρ c (Proc.devRef .tc main_v37_0) = (dat0 (V1 m ρ) c).arrAt 11 cfg0.N := W2_arr m ρ c 11
/-- Between the regions the edge region's second output holds the array that region leaves there. -/
theorem mid_vecs : W2 m ρ c (Proc.devRef .tc main_v37_1) = (dat0 (V1 m ρ) c).arrAt 12 cfg0.N := W2_arr m ρ c 12

/-! ## The arguments the node region reads are as launched -/

/-- The node region is entered with argument 0 as launched: the region leaves an input window's array alone, and the
    argument ends as launched. -/
theorem node_x : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)
/-- The node region is entered with argument 10 as launched. -/
theorem node_b1 : V3 m ρ c main_arg10 = m ((c : Thread nD τ).loc main_arg10) :=
  ((W4_arr m ρ c 4).trans (((dat1 (V3 m ρ) c).arrAt_in 4 rfl _).trans (A_eq1 (V3 m ρ) c 4))).symm.trans (W4_main_arg10 m ρ c)
/-- The node region is entered with argument 11 as launched. -/
theorem node_w2 : V3 m ρ c main_arg11 = m ((c : Thread nD τ).loc main_arg11) :=
  ((W4_arr m ρ c 5).trans (((dat1 (V3 m ρ) c).arrAt_in 5 rfl _).trans (A_eq1 (V3 m ρ) c 5))).symm.trans (W4_main_arg11 m ρ c)
/-- The node region is entered with argument 12 as launched. -/
theorem node_b2 : V3 m ρ c main_arg12 = m ((c : Thread nD τ).loc main_arg12) :=
  ((W4_arr m ρ c 6).trans (((dat1 (V3 m ρ) c).arrAt_in 6 rfl _).trans (A_eq1 (V3 m ρ) c 6))).symm.trans (W4_main_arg12 m ρ c)

/-- Argument 9 still holds its launch contents between the regions: no host operation of the second stretch and
    no region writes it. -/
theorem W2_main_arg9 : W2 m ρ c (Proc.devRef .tc main_arg9) = m ((c : Thread nD τ).loc main_arg9) :=
  ((W4_of_ne m ρ c main_arg9 (by decide)).trans
    (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).symm.trans
    (W4_main_arg9 m ρ c)

/-- Argument 1 still holds its launch contents between the regions: no host operation of the second stretch and
    no region writes it. -/
theorem W2_main_arg1 : W2 m ρ c (Proc.devRef .tc main_arg1) = m ((c : Thread nD τ).loc main_arg1) :=
  ((W4_of_ne m ρ c main_arg1 (by decide)).trans
    (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).symm.trans
    (W4_main_arg1 m ρ c)

/-! ## The two weight windows: the two halves of argument 9 -/

set_option maxHeartbeats 400000 in
/-- The first weight window is entered with the slice of argument 9 from row 0. -/
theorem node_wa_arr : V3 m ρ c main_v47 =
    extractStridedSlice S128x128 ![0, 0] (m ((c : Thread nD τ).loc main_arg9)) slices_S256x128_S128x128_0_0 := by
  rw [← W2_main_arg9 m ρ c]
  show StableHlo.after hostOps1 (W2 m ρ c) (Proc.devRef .tc main_v47) = _
  generalize W2 m ρ c = W
  dsimp only [hostOps1]
  after_results

set_option maxHeartbeats 400000 in
/-- Element (k, j) of the first weight window is element (k, j) of argument 9. -/
theorem node_wa (k j : Fin 128) :
    (V3 m ρ c main_v47 : S128x128.Idx → EReal) (ValueIdx.ix2 k j)
      = (m ((c : Thread nD τ).loc main_arg9) : S256x128.Idx → EReal) (ValueIdx.ix2 ⟨k.val, by omega⟩ j) := by
  rw [node_wa_arr m ρ c]
  exact extractStridedSlice_apply (s := S256x128) (t := S128x128) ![0, 0]
    (m ((c : Thread nD τ).loc main_arg9) : S256x128.Idx → EReal) slices_S256x128_S128x128_0_0
    (ValueIdx.ix2 k j) (ValueIdx.ix2 ⟨k.val, by omega⟩ j) (fun a => match a with
    | ⟨0, _⟩ => by show k.val = 0 + k.val; omega
    | ⟨1, _⟩ => by show j.val = 0 + j.val; omega)

set_option maxHeartbeats 400000 in
/-- The second weight window is entered with the slice of argument 9 from row 128. -/
theorem node_wb_arr : V3 m ρ c main_v48 =
    extractStridedSlice S128x128 ![128, 0] (m ((c : Thread nD τ).loc main_arg9)) slices_S256x128_S128x128_128_0 := by
  rw [← W2_main_arg9 m ρ c]
  show StableHlo.after hostOps1 (W2 m ρ c) (Proc.devRef .tc main_v48) = _
  generalize W2 m ρ c = W
  dsimp only [hostOps1]
  after_results

set_option maxHeartbeats 400000 in
/-- Element (k, j) of the second weight window is element (128 + k, j) of argument 9. -/
theorem node_wb (k j : Fin 128) :
    (V3 m ρ c main_v48 : S128x128.Idx → EReal) (ValueIdx.ix2 k j)
      = (m ((c : Thread nD τ).loc main_arg9) : S256x128.Idx → EReal) (ValueIdx.ix2 ⟨128 + k.val, by omega⟩ j) := by
  rw [node_wb_arr m ρ c]
  exact extractStridedSlice_apply (s := S256x128) (t := S128x128) ![128, 0]
    (m ((c : Thread nD τ).loc main_arg9) : S256x128.Idx → EReal) slices_S256x128_S128x128_128_0
    (ValueIdx.ix2 k j) (ValueIdx.ix2 ⟨128 + k.val, by omega⟩ j) (fun a => match a with
    | ⟨0, _⟩ => by show 128 + k.val = 128 + k.val; omega
    | ⟨1, _⟩ => by show j.val = 0 + j.val; omega)

/-! ## The destination array and the two aggregations -/

set_option maxHeartbeats 400000 in
/-- Between the regions the flat destination array is row 1 of the edge list, reshaped: the first host stretch
    writes it (a slice, then a reshape) and nothing after does, the edge region included. It is the reference
    program's term for the same array. -/
theorem W2_main_v3 : W2 m ρ c (Proc.devRef .tc main_v3)
    = Cert.ReferenceIdeal.Read.val_main_v3 (F := Ideal) (m ((c : Thread nD τ).loc main_arg2)) := by
  rw [W2_of_ne m ρ c main_v3 (by decide)]
  show StableHlo.after hostOps0 (W0 m ρ c) (Proc.devRef .tc main_v3) = _
  have h0 : W0 m ρ c (Proc.devRef .tc main_arg2) = m ((c : Thread nD τ).loc main_arg2) := rfl
  rw [← h0]
  generalize W0 m ρ c = W
  dsimp only [hostOps0]
  after_results
  rfl

/-- The accumulating scatter is a function of its dimension numbers and its three operands. -/
theorem scatterAdd_congr {s si u : Shape} {w : Nat} {φ : FTy} {d d' : ScatterDims s si u}
    {x x' : FVec Ideal s φ} {i i' : IVec si w} {v v' : FVec Ideal u φ}
    (hd : d = d') (hx : x = x') (hi : i = i') (hv : v = v') :
    Host.scatterAdd d x i v = Host.scatterAdd d' x' i' v' := by
  subst hd hx hi hv; rfl

/-- The two programs name the same dimension numbers for the scatter into the coordinates … -/
theorem record3_eq : scatter_S50000x3_S800000x1_S800000x3_1_0_0_1
    = Cert.ReferenceIdeal.scatter_S50000x3_S800000x1_S800000x3_1_0_0_1 := rfl
/-- … and for the scatter into the features. -/
theorem record128_eq : scatter_S50000x128_S800000x1_S800000x128_1_0_0_1
    = Cert.ReferenceIdeal.scatter_S50000x128_S800000x1_S800000x128_1_0_0_1 := rfl

set_option maxHeartbeats 400000 in
/-- The second host stretch's aggregate of the messages, over any contents at its entry: the rows of the edge
    region's first output summed, from zero, into the rows the destination column names. -/
theorem agg_msgs_of (W : Valuation τ sig (Elt Ideal)) :
    StableHlo.after hostOps1 W (Proc.devRef .tc main_v46)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (W (Proc.devRef .tc main_v3)))
          (W (Proc.devRef .tc main_v37_0)) := by
  dsimp only [hostOps1]
  after_results

set_option maxHeartbeats 400000 in
/-- The second host stretch's coordinate update, over any contents at its entry: argument 1 plus the scaled
    aggregate of the edge region's second output. -/
theorem upd_x_of (W : Valuation τ sig (Elt Ideal)) :
    StableHlo.after hostOps1 W (Proc.devRef .tc main_v43)
      = addf (W (Proc.devRef .tc main_arg1))
          (mulf (Host.scatterAdd scatter_S50000x3_S800000x1_S800000x3_1_0_0_1
              (broadcastInDim S50000x3 ![] bcast_S_S50000x3 (constant (F := Ideal) S_ .f32 0x00000000#32))
              (broadcastInDim S800000x1 ![0] bcast_S800000_S800000x1_0 (W (Proc.devRef .tc main_v3)))
              (W (Proc.devRef .tc main_v37_1)))
            (broadcastInDim S50000x3 ![] bcast_S_S50000x3 (constant (F := Ideal) S_ .f32 0x37A7C688#32))) := by
  dsimp only [hostOps1]
  after_results

set_option maxHeartbeats 400000 in
/-- The kernel's aggregate of an array of messages is the reference program's aggregation stage at that array:
    the same dimension numbers, the same zero array, the same destination column. -/
theorem agg_msgs_ref (x2 : IVec S2x800000 32) (M : FVec Ideal S800000x128 .f32) :
    Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (Cert.ReferenceIdeal.Read.val_main_v3 (F := Ideal) x2)) M
      = Host.scatterAdd Cert.ReferenceIdeal.scatter_S50000x128_S800000x1_S800000x128_1_0_0_1
          (Cert.ReferenceIdeal.Read.val_main_v58 (F := Ideal)) (Cert.ReferenceIdeal.Read.val_main_v59 (F := Ideal) x2) M := by
  refine scatterAdd_congr ?_ ?_ ?_ ?_
  · exact record128_eq
  · rfl
  · rfl
  · rfl

set_option maxHeartbeats 400000 in
/-- The kernel's coordinate update from an array of weighted differences is the reference program's update stage
    at that array. -/
theorem upd_x_ref (x1 : FVec Ideal S50000x3 .f32) (x2 : IVec S2x800000 32) (Vc : FVec Ideal S800000x3 .f32) :
    addf x1 (mulf (Host.scatterAdd scatter_S50000x3_S800000x1_S800000x3_1_0_0_1
          (broadcastInDim S50000x3 ![] bcast_S_S50000x3 (constant (F := Ideal) S_ .f32 0x00000000#32))
          (broadcastInDim S800000x1 ![0] bcast_S800000_S800000x1_0 (Cert.ReferenceIdeal.Read.val_main_v3 (F := Ideal) x2)) Vc)
        (broadcastInDim S50000x3 ![] bcast_S_S50000x3 (constant (F := Ideal) S_ .f32 0x37A7C688#32)))
      = addf x1 (mulf (Host.scatterAdd Cert.ReferenceIdeal.scatter_S50000x3_S800000x1_S800000x3_1_0_0_1
          (Cert.ReferenceIdeal.Read.val_main_v52 (F := Ideal)) (Cert.ReferenceIdeal.Read.val_main_v53 (F := Ideal) x2) Vc)
        (Cert.ReferenceIdeal.Read.val_main_v55 (F := Ideal))) := by
  refine congrArg (addf x1) ?_
  refine congrArg₂ mulf ?_ ?_
  · refine scatterAdd_congr ?_ ?_ ?_ ?_
    · exact record3_eq
    · rfl
    · rfl
    · rfl
  · rfl

/-- The node region's aggregate window is entered with the reference program's aggregation stage, read at the
    array the edge region leaves in its first output. -/
theorem node_mi : @Eq (FVec Ideal S50000x128 .f32) (V3 m ρ c main_v46)
    (Host.scatterAdd Cert.ReferenceIdeal.scatter_S50000x128_S800000x1_S800000x128_1_0_0_1
        (Cert.ReferenceIdeal.Read.val_main_v58 (F := Ideal)) (Cert.ReferenceIdeal.Read.val_main_v59 (F := Ideal) (m ((c : Thread nD τ).loc main_arg2)))
        ((dat0 (V1 m ρ) c).arrAt 11 cfg0.N : FVec Ideal S800000x128 .f32)) := by
  show StableHlo.after hostOps1 (W2 m ρ c) (Proc.devRef .tc main_v46) = _
  rw [agg_msgs_of, W2_main_v3 m ρ c, mid_msgs m ρ c]
  exact agg_msgs_ref _ _

/-- The second result is the reference program's coordinate update stage, read at the array the edge region leaves
    in its second output: the second host stretch writes it and the node region does not touch it. -/
theorem out_x : @Eq (FVec Ideal S50000x3 .f32) (W4 m ρ c (Proc.devRef .tc main_v43))
    (addf (m ((c : Thread nD τ).loc main_arg1) : FVec Ideal S50000x3 .f32)
        (mulf (Host.scatterAdd Cert.ReferenceIdeal.scatter_S50000x3_S800000x1_S800000x3_1_0_0_1
            (Cert.ReferenceIdeal.Read.val_main_v52 (F := Ideal)) (Cert.ReferenceIdeal.Read.val_main_v53 (F := Ideal) (m ((c : Thread nD τ).loc main_arg2)))
            ((dat0 (V1 m ρ) c).arrAt 12 cfg0.N : FVec Ideal S800000x3 .f32))
          (Cert.ReferenceIdeal.Read.val_main_v55 (F := Ideal)))) := by
  rw [W4_of_ne m ρ c main_v43 (by decide)]
  show StableHlo.after hostOps1 (W2 m ρ c) (Proc.devRef .tc main_v43) = _
  rw [upd_x_of, W2_main_arg1 m ρ c, W2_main_v3 m ρ c, mid_vecs m ρ c]
  exact upd_x_ref _ _ _

end Cert.KernelIdeal.HostMiddle

end
-- ==== Proof.LayerSpec.lean ====
/-
  One layer of an equivariant message-passing network, written ROW BY ROW over the extended reals.

  An edge carries the two endpoint feature rows `a` (target node) and `b` (source node), both of width 128, and
  the coordinate difference `d` of width 3. Its message is a two-layer perceptron of the row
  `[a | b | ‖d‖²]` of width 257: with the first weight matrix cut into the bands `Wa` (rows 0–127), `Wb` (rows
  128–255) and the single row `wc` (row 256),

      hidden j  = max ( Σₖ a k · Wa k j  +  Σₖ b k · Wb k j  +  ‖d‖² · wc j  +  b₁ j , 0 )
      message h = Σⱼ hidden j · W₂ j h + b₂ h
      weight    = Σₕ message h · wx h + bx
      vector l  = d l · weight .

  A node carries its feature row `x` and the sum `mi` of its incoming messages; its update is the perceptron of the
  row `[x | mi]` of width 256, the first weight matrix again cut into two bands:

      hidden j = max ( Σₖ x k · Wa k j + Σₖ mi k · Wb k j + b₁ j , 0 ) ,   out q = Σⱼ hidden j · W₂ j q + b₂ q .

  The threshold of the rectifier is the floating zero word, which both programs spell the same way; nothing here
  needs its value. These are the functions both programs are shown to compute, entry by entry.
-/
import Mathlib.Algebra.BigOperators.Fin
import Idealize.ShloMosaic.PureOps.Ideal
import Idealize.ShloMosaic.Lib.ValueIdx

noncomputable section

namespace Cert.Layer

open Idealize.ShloMosaic

/-- The rectifier's threshold: the floating zero word read as an extended real. -/
abbrev zeroWord : EReal := Ideal.ofBits .f32 0x00000000#32

/-- The squared length of a coordinate difference. -/
def sqNorm (d : Fin 3 → EReal) : EReal := ∑ l : Fin 3, d l * d l

/-- The edge perceptron's hidden unit `j`. -/
def edgeHidden (a b : Fin 128 → EReal) (d : Fin 3 → EReal) (Wa Wb : Fin 128 → Fin 128 → EReal)
    (wc b1 : Fin 128 → EReal) (j : Fin 128) : EReal :=
  max ((((∑ k : Fin 128, a k * Wa k j) + (∑ k : Fin 128, b k * Wb k j)) + sqNorm d * wc j) + b1 j) zeroWord

/-- The edge's message, entry `h`. -/
def edgeMsg (a b : Fin 128 → EReal) (d : Fin 3 → EReal) (Wa Wb : Fin 128 → Fin 128 → EReal)
    (wc b1 : Fin 128 → EReal) (W2 : Fin 128 → Fin 128 → EReal) (b2 : Fin 128 → EReal) (h : Fin 128) : EReal :=
  (∑ j : Fin 128, edgeHidden a b d Wa Wb wc b1 j * W2 j h) + b2 h

/-- The scalar weight the edge puts on its coordinate difference. -/
def edgeWeight (a b : Fin 128 → EReal) (d : Fin 3 → EReal) (Wa Wb : Fin 128 → Fin 128 → EReal)
    (wc b1 : Fin 128 → EReal) (W2 : Fin 128 → Fin 128 → EReal) (b2 : Fin 128 → EReal)
    (wx : Fin 128 → EReal) (bx : EReal) : EReal :=
  (∑ h : Fin 128, edgeMsg a b d Wa Wb wc b1 W2 b2 h * wx h) + bx

/-- The weighted coordinate difference, entry `l`. -/
def edgeVec (a b : Fin 128 → EReal) (d : Fin 3 → EReal) (Wa Wb : Fin 128 → Fin 128 → EReal)
    (wc b1 : Fin 128 → EReal) (W2 : Fin 128 → Fin 128 → EReal) (b2 : Fin 128 → EReal)
    (wx : Fin 128 → EReal) (bx : EReal) (l : Fin 3) : EReal :=
  d l * edgeWeight a b d Wa Wb wc b1 W2 b2 wx bx

/-- The node perceptron's hidden unit `j`. -/
def nodeHidden (x mi : Fin 128 → EReal) (Wa Wb : Fin 128 → Fin 128 → EReal) (b1 : Fin 128 → EReal)
    (j : Fin 128) : EReal :=
  max (((∑ k : Fin 128, x k * Wa k j) + (∑ k : Fin 128, mi k * Wb k j)) + b1 j) zeroWord

/-- The node's new feature row, entry `q`. -/
def nodeOut (x mi : Fin 128 → EReal) (Wa Wb : Fin 128 → Fin 128 → EReal) (b1 : Fin 128 → EReal)
    (W2 : Fin 128 → Fin 128 → EReal) (b2 : Fin 128 → EReal) (q : Fin 128) : EReal :=
  (∑ j : Fin 128, nodeHidden x mi Wa Wb b1 j * W2 j q) + b2 q

/-! ## The same functions over whole arrays

  An array of E edges (or N nodes) is processed row by row: entry (r, h) of the result depends on row r of each
  row-wise input and on the whole weights. The first weight matrix enters through its bands of rows. -/

open Idealize.ShloMosaic.ValueIdx

/-- Rows 0 … 127 of a matrix with at least 128 rows. -/
def topRows {R C : ℕ} (hR : 128 ≤ R) (W : (⟨2, ![R, C]⟩ : Shape).Idx → EReal) : (⟨2, ![128, C]⟩ : Shape).Idx → EReal :=
  fun i => W (ix2 (⟨(i 0).val, by have h0 : (i 0).val < 128 := (i 0).isLt; omega⟩ : Fin R) (i 1))

/-- Rows 128 … 255 of a matrix with at least 256 rows. -/
def nextRows {R C : ℕ} (hR : 256 ≤ R) (W : (⟨2, ![R, C]⟩ : Shape).Idx → EReal) : (⟨2, ![128, C]⟩ : Shape).Idx → EReal :=
  fun i => W (ix2 (⟨128 + (i 0).val, by have h0 : (i 0).val < 128 := (i 0).isLt; omega⟩ : Fin R) (i 1))

/-- Row 256 of a matrix with at least 257 rows, as a one-row matrix. -/
def row256 {R C : ℕ} (hR : 257 ≤ R) (W : (⟨2, ![R, C]⟩ : Shape).Idx → EReal) : (⟨2, ![1, C]⟩ : Shape).Idx → EReal :=
  fun i => W (ix2 (⟨256, by omega⟩ : Fin R) (i 1))

/-- The messages of all edges. -/
def msgArr {E : ℕ} (A B : (⟨2, ![E, 128]⟩ : Shape).Idx → EReal) (D : (⟨2, ![E, 3]⟩ : Shape).Idx → EReal)
    (Wa Wb : (⟨2, ![128, 128]⟩ : Shape).Idx → EReal) (wc : (⟨2, ![1, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![E, 128]⟩ : Shape).Idx → EReal :=
  fun i => edgeMsg (fun k => A (ix2 (i 0) k)) (fun k => B (ix2 (i 0) k)) (fun l => D (ix2 (i 0) l))
    (fun k j => Wa (ix2 k j)) (fun k j => Wb (ix2 k j)) (fun j => wc (ix2 (0 : Fin 1) j)) (fun j => b1 (ix1 j))
    (fun j h => W2 (ix2 j h)) (fun h => b2 (ix1 h)) (i 1)

/-- The weighted coordinate differences of all edges. -/
def vecArr {E : ℕ} (A B : (⟨2, ![E, 128]⟩ : Shape).Idx → EReal) (D : (⟨2, ![E, 3]⟩ : Shape).Idx → EReal)
    (Wa Wb : (⟨2, ![128, 128]⟩ : Shape).Idx → EReal) (wc : (⟨2, ![1, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (wx : (⟨2, ![128, 1]⟩ : Shape).Idx → EReal)
    (bx : (⟨1, ![1]⟩ : Shape).Idx → EReal) : (⟨2, ![E, 3]⟩ : Shape).Idx → EReal :=
  fun i => edgeVec (fun k => A (ix2 (i 0) k)) (fun k => B (ix2 (i 0) k)) (fun l => D (ix2 (i 0) l))
    (fun k j => Wa (ix2 k j)) (fun k j => Wb (ix2 k j)) (fun j => wc (ix2 (0 : Fin 1) j)) (fun j => b1 (ix1 j))
    (fun j h => W2 (ix2 j h)) (fun h => b2 (ix1 h)) (fun h => wx (ix2 h (0 : Fin 1))) (bx (ix1 (0 : Fin 1))) (i 1)

/-- The new features of all nodes. -/
def nodeArr {N : ℕ} (X Mi : (⟨2, ![N, 128]⟩ : Shape).Idx → EReal) (Wa Wb : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![N, 128]⟩ : Shape).Idx → EReal :=
  fun i => nodeOut (fun k => X (ix2 (i 0) k)) (fun k => Mi (ix2 (i 0) k)) (fun k j => Wa (ix2 k j)) (fun k j => Wb (ix2 k j))
    (fun j => b1 (ix1 j)) (fun j q => W2 (ix2 j q)) (fun q => b2 (ix1 q)) (i 1)

end Cert.Layer

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.EdgeBlock.lean ====
/-
  What the edge kernel stores for one block of 4000 edges, entry by entry, over the extended reals.

  The body holds the block's target rows `A`, source rows `B` (both 4000 × 128) and coordinate differences `D`
  (4000 × 3), and the whole weights. Every operation is read at an index: a matrix product into a zero accumulator
  is the sum over the contracted axis, a lane sum is the sum over the lane, a broadcast of a column or of a row
  repeats it, a change of float format is the identity. So the stored message block at (p, h) is the row function
  `Layer.edgeMsg` of row p of the three inputs, and the stored vector block at (p, l) is `Layer.edgeVec`.
-/
import proofs.«100272_j18708877542146_2_alg».proof.Proof.Gen.KernelIdeal.Frame
import proofs.«100272_j18708877542146_2_alg».proof.Proof.LayerSpec
import proofs.«100272_j18708877542146_2_alg».proof.Proof.LibPlainDot
import proofs.«100272_j18708877542146_2_alg».proof.Proof.LibAxisSums
import proofs.«100272_j18708877542146_2_alg».proof.Proof.LibColumnBroadcast
import proofs.«100272_j18708877542146_2_alg».proof.Proof.LibColumnCast
import Idealize.ShloMosaic.Lib.ValueIdx
import Idealize.ShloMosaic.Lib.ValueLayout
import Idealize.ShloMosaic.Lib.Pipeline.Value

set_option maxRecDepth 16384

noncomputable section

namespace Cert.KernelIdeal.EdgeBlock

open Cert.KernelIdeal Idealize.ShloMosaic Idealize.ShloMosaic.ValueIdx Cert.Layer

/-- A 4000-row block times a 128 × 128 weight, into a zero accumulator, at (p, q). -/
theorem mm_block {φ₁ φ₂ : FTy} (X : FVec Ideal S4000x128 φ₁) (W : FVec Ideal S128x128 φ₂) (p : Fin 4000) (q : Fin 128) :
    matmul dot_S4000x128_S128x128_S4000x128_1_0_0_1_n_n none X W (constant (F := Ideal) S4000x128 .f32 0x00000000#32) (ix2 p q)
      = ∑ k : Fin 128, X (ix2 p k) * W (ix2 k q) :=
  Cert.Lib.matmul_zero_apply Facts₀.dot_S4000x128_S128x128_S4000x128_1_0_0_1_n_n_wf none X W p q

/-- A 4000-row block times a 128 × 1 column, into a zero accumulator, at (p, 0). -/
theorem mm_col {φ₁ φ₂ : FTy} (X : FVec Ideal S4000x128 φ₁) (W : FVec Ideal S128x1 φ₂) (p : Fin 4000) (q : Fin 1) :
    matmul dot_S4000x128_S128x1_S4000x1_1_0_0_1_n_n none X W (constant (F := Ideal) S4000x1 .f32 0x00000000#32) (ix2 p q)
      = ∑ k : Fin 128, X (ix2 p k) * W (ix2 k q) :=
  Cert.Lib.matmul_zero_apply Facts₀.dot_S4000x128_S128x1_S4000x1_1_0_0_1_n_n_wf none X W p q

/-- The squared length of row p of the differences, as the body computes it: the lane sum of the entrywise square,
    stood up as a column and spread over the 128 lanes. -/
theorem sq_spread (D : FVec Ideal S4000x3 .f32) (p : Fin 4000) (j : Fin 128) :
    broadcastTo S4000x128
        (shapeCast S4000x1 (multiReduction .add [1] S4000 (mulf D D) 0x00000000#32 Facts₀.reduces_S4000x3_S4000 (.inl rfl) rfl)
          Facts₀.shapeCasts_S4000_S4000x1)
        Facts₀.broadcasts_S4000x1_S4000x128 (ix2 p j)
      = sqNorm (fun l => D (ix2 p l)) := by
  rw [Cert.Lib.broadcastTo_a1_ab_apply, Cert.Lib.shapeCast_a_a1_apply]
  exact (Cert.Lib.rowSum_apply (mulf D D) 0x00000000#32 Facts₀.reduces_S4000x3_S4000 (.inl rfl) rfl p).trans rfl

/-- A row [1, 128] spread over 4000 rows. -/
theorem row_spread (w : FVec Ideal S1x128 .f32) (p : Fin 4000) (j : Fin 128) :
    broadcastTo S4000x128 w Facts₀.broadcasts_S1x128_S4000x128 (ix2 p j) = w (ix2 (0 : Fin 1) j) :=
  broadcastTo_1b_ab_apply w _ p j

/-- A vector [128] laid as a row and spread over 4000 rows. -/
theorem vec_spread (b : FVec Ideal S128 .f32) (p : Fin 4000) (j : Fin 128) :
    broadcastTo S4000x128 (shapeCast S1x128 b Facts₀.shapeCasts_S128_S1x128) Facts₀.broadcasts_S1x128_S4000x128 (ix2 p j)
      = b (ix1 j) := by
  rw [broadcastTo_1b_ab_apply, shapeCast_a_1a_apply]

/-- The hidden layer of the block's row p, as the body spells it. -/
theorem hidden_block (A B : FVec Ideal S4000x128 .bf16) (Wa Wb : FVec Ideal S128x128 .bf16) (D : FVec Ideal S4000x3 .f32)
    (wc : FVec Ideal S1x128 .f32) (b1 : FVec Ideal S128 .f32) (p : Fin 4000) (j : Fin 128) :
    maximumf
        (addf
          (addf
            (addf (matmul dot_S4000x128_S128x128_S4000x128_1_0_0_1_n_n none A Wa (constant (F := Ideal) S4000x128 .f32 0x00000000#32))
              (matmul dot_S4000x128_S128x128_S4000x128_1_0_0_1_n_n none B Wb (constant (F := Ideal) S4000x128 .f32 0x00000000#32)))
            (mulf
              (broadcastTo S4000x128
                (shapeCast S4000x1 (multiReduction .add [1] S4000 (mulf D D) 0x00000000#32 Facts₀.reduces_S4000x3_S4000 (.inl rfl) rfl)
                  Facts₀.shapeCasts_S4000_S4000x1)
                Facts₀.broadcasts_S4000x1_S4000x128)
              (broadcastTo S4000x128 wc Facts₀.broadcasts_S1x128_S4000x128)))
          (broadcastTo S4000x128 (shapeCast S1x128 b1 Facts₀.shapeCasts_S128_S1x128) Facts₀.broadcasts_S1x128_S4000x128))
        (broadcast S4000x128 (Scalar.ofBits (F := Ideal) .f32 0x00000000#32)) (ix2 p j)
      = edgeHidden (fun k => A (ix2 p k)) (fun k => B (ix2 p k)) (fun l => D (ix2 p l)) (fun k j => Wa (ix2 k j))
          (fun k j => Wb (ix2 k j)) (fun j => wc (ix2 (0 : Fin 1) j)) (fun j => b1 (ix1 j)) j := by
  rw [maximumf_apply, addf_apply, addf_apply, addf_apply, mulf_apply, mm_block, mm_block, sq_spread, row_spread, vec_spread]
  rfl

/-- The product of the rectified hidden layer with the second weight, at (p, h). -/
theorem pay4_apply (v0 v2 : Vec Ideal S4000x128 .bf16) (v4 v7 : Vec Ideal S128x128 .f32) (v13 : Vec Ideal S4000x3 .f32)
    (v18 : Vec Ideal S1x128 .f32) (v26 : Vec Ideal S128 .f32) (v32 : Vec Ideal S128x128 .f32) (p : Fin 4000) (h : Fin 128) :
    Gen.k0_pay4 (F := Ideal) v0 v2 v4 v7 v13 v18 v26 v32 (ix2 p h)
      = ∑ j : Fin 128, edgeHidden (fun k => v0 (ix2 p k)) (fun k => v2 (ix2 p k)) (fun l => v13 (ix2 p l))
          (fun k j => v4 (ix2 k j)) (fun k j => v7 (ix2 k j)) (fun j => v18 (ix2 (0 : Fin 1) j)) (fun j => v26 (ix1 j)) j
            * v32 (ix2 j h) := by
  unfold Gen.k0_pay4 Gen.k0_pay3
  simp only [shapeCast_self]
  refine (mm_block _ _ p h).trans (Finset.sum_congr rfl fun j _ => ?_)
  rw [truncf_apply, truncf_apply, hidden_block]
  rfl

/-- The message block at (p, h): the product plus the second bias. -/
theorem pay1_apply (v0 v2 : Vec Ideal S4000x128 .bf16) (v4 v7 : Vec Ideal S128x128 .f32) (v13 : Vec Ideal S4000x3 .f32)
    (v18 : Vec Ideal S1x128 .f32) (v26 : Vec Ideal S128 .f32) (v32 : Vec Ideal S128x128 .f32) (v36 : Vec Ideal S128 .f32)
    (p : Fin 4000) (h : Fin 128) :
    Gen.k0_pay1 (F := Ideal) (Gen.k0_pay4 v0 v2 v4 v7 v13 v18 v26 v32) (Gen.k0_pay5 v36) (ix2 p h)
      = edgeMsg (fun k => v0 (ix2 p k)) (fun k => v2 (ix2 p k)) (fun l => v13 (ix2 p l))
          (fun k j => v4 (ix2 k j)) (fun k j => v7 (ix2 k j)) (fun j => v18 (ix2 (0 : Fin 1) j)) (fun j => v26 (ix1 j))
          (fun j h => v32 (ix2 j h)) (fun h => v36 (ix1 h)) h := by
  unfold Gen.k0_pay1 Gen.k0_pay5 edgeMsg
  rw [addf_apply, pay4_apply, vec_spread]

/-- The vector block at (p, l): the difference times the edge's scalar weight. -/
theorem pay2_apply (v0 v2 : Vec Ideal S4000x128 .bf16) (v4 v7 : Vec Ideal S128x128 .f32) (v13 : Vec Ideal S4000x3 .f32)
    (v18 : Vec Ideal S1x128 .f32) (v26 : Vec Ideal S128 .f32) (v32 : Vec Ideal S128x128 .f32) (v36 : Vec Ideal S128 .f32)
    (v41 : Vec Ideal S128x1 .f32) (v45 : Vec Ideal S1 .f32) (p : Fin 4000) (l : Fin 3) :
    Gen.k0_pay2 (F := Ideal) (Gen.k0_pay3 v13) (Gen.k0_pay4 v0 v2 v4 v7 v13 v18 v26 v32) (Gen.k0_pay5 v36) v41 v45 (ix2 p l)
      = edgeVec (fun k => v0 (ix2 p k)) (fun k => v2 (ix2 p k)) (fun l => v13 (ix2 p l))
          (fun k j => v4 (ix2 k j)) (fun k j => v7 (ix2 k j)) (fun j => v18 (ix2 (0 : Fin 1) j)) (fun j => v26 (ix1 j))
          (fun j h => v32 (ix2 j h)) (fun h => v36 (ix1 h)) (fun h => v41 (ix2 h (0 : Fin 1))) (v45 (ix1 (0 : Fin 1))) l := by
  unfold Gen.k0_pay2 edgeVec edgeWeight
  simp only [shapeCast_self]
  rw [mulf_apply, Cert.Lib.broadcastTo_a1_ab_apply, addf_apply, mm_col, broadcastTo_1b_ab_apply, shapeCast_a_1a_apply]
  unfold Gen.k0_pay3
  rw [shapeCast_self]
  refine congrArg (fun z => v13 (ix2 p l) * z) (congrArg (fun z => z + v45 (ix1 (0 : Fin 1))) ?_)
  refine Finset.sum_congr rfl fun h _ => ?_
  rw [truncf_apply, truncf_apply, pay1_apply]

/-! ## The two stored blocks -/

theorem hz2 : (![0, 0] : Fin 2 → Nat) = fun _ => 0 := funext fun a => by match a with | ⟨0, _⟩ => rfl | ⟨1, _⟩ => rfl
theorem hz1 : (![0] : Fin 1 → Nat) = fun _ => 0 := funext fun a => by match a with | ⟨0, _⟩ => rfl

/-- The message block the body leaves, at (p, h). -/
theorem msg_block (x0 x1 : Vec Ideal S4000x128 .bf16) (x2 : Vec Ideal S4000x3 .f32) (x3 x4 : Vec Ideal S128x128 .f32)
    (x5 : Vec Ideal S1x128 .f32) (x6 : Vec Ideal S128 .f32) (x7 : Vec Ideal S128x128 .f32) (x8 : Vec Ideal S128 .f32)
    (x9 : Vec Ideal S128x1 .f32) (x10 : Vec Ideal S1 .f32) (p : Fin 4000) (h : Fin 128) :
    Gen.out0_11 (F := Ideal) x0 x1 x2 x3 x4 x5 x6 x7 x8 x9 x10 (ix2 p h)
      = edgeMsg (fun k => x0 (ix2 p k)) (fun k => x1 (ix2 p k)) (fun l => x2 (ix2 p l))
          (fun k j => x3 (ix2 k j)) (fun k j => x4 (ix2 k j)) (fun j => x5 (ix2 (0 : Fin 1) j)) (fun j => x6 (ix1 j))
          (fun j h => x7 (ix2 j h)) (fun h => x8 (ix1 h)) h := by
  unfold Gen.out0_11
  rw [View.canon_unit_zero hz2]
  simp only [View.ld_unit_zero (S := S4000x128) hz2, View.ld_unit_zero (S := S128x128) hz2, View.ld_unit_zero (S := S4000x3) hz2,
    View.ld_unit_zero (S := S1x128) hz2, View.ld_unit_zero (S := S128) hz1]
  exact pay1_apply x0 x1 x3 x4 x2 x5 x6 x7 x8 p h

/-- The vector block the body leaves, at (p, l). -/
theorem vec_block (x0 x1 : Vec Ideal S4000x128 .bf16) (x2 : Vec Ideal S4000x3 .f32) (x3 x4 : Vec Ideal S128x128 .f32)
    (x5 : Vec Ideal S1x128 .f32) (x6 : Vec Ideal S128 .f32) (x7 : Vec Ideal S128x128 .f32) (x8 : Vec Ideal S128 .f32)
    (x9 : Vec Ideal S128x1 .f32) (x10 : Vec Ideal S1 .f32) (p : Fin 4000) (l : Fin 3) :
    Gen.out0_12 (F := Ideal) x0 x1 x2 x3 x4 x5 x6 x7 x8 x9 x10 (ix2 p l)
      = edgeVec (fun k => x0 (ix2 p k)) (fun k => x1 (ix2 p k)) (fun l => x2 (ix2 p l))
          (fun k j => x3 (ix2 k j)) (fun k j => x4 (ix2 k j)) (fun j => x5 (ix2 (0 : Fin 1) j)) (fun j => x6 (ix1 j))
          (fun j h => x7 (ix2 j h)) (fun h => x8 (ix1 h)) (fun h => x9 (ix2 h (0 : Fin 1))) (x10 (ix1 (0 : Fin 1))) l := by
  unfold Gen.out0_12
  rw [View.canon_unit_zero hz2]
  simp only [View.ld_unit_zero (S := S4000x128) hz2, View.ld_unit_zero (S := S128x128) hz2, View.ld_unit_zero (S := S4000x3) hz2,
    View.ld_unit_zero (S := S1x128) hz2, View.ld_unit_zero (S := S128) hz1, View.ld_unit_zero (S := S128x1) hz2,
    View.ld_unit_zero (S := S1) hz1]
  exact pay2_apply x0 x1 x3 x4 x2 x5 x6 x7 x8 x9 x10 p l

end Cert.KernelIdeal.EdgeBlock

end
-- ==== Proof.EdgeArrays.lean ====
/-
  From blocks to arrays, for the edge kernel: what its two result arrays hold when it has run over all 200 blocks.

  Grid point t works on rows 4000·t … 4000·t + 3999 of the three edge-wise inputs and of both results, and on the whole
  of every weight. The block a point writes back is therefore the restriction to those rows of ONE function of the
  arrays the kernel finds on entry — `Layer.msgArr` for the messages, `Layer.vecArr` for the weighted differences —,
  and the 200 blocks tile the 800000 rows (row r lies in block r / 4000). Hence each result array IS that function.
  The entry contents `V` are a parameter: nothing here depends on how the inputs were made.
-/
import proofs.«100272_j18708877542146_2_alg».proof.Proof.Gen.KernelIdeal.Frame
import proofs.«100272_j18708877542146_2_alg».proof.Proof.LayerSpec
import proofs.«100272_j18708877542146_2_alg».proof.Proof.EdgeBlock
import Idealize.ShloMosaic.Lib.ValueIdx
import Idealize.ShloMosaic.Lib.Pipeline.Value

set_option maxRecDepth 16384

noncomputable section

namespace Cert.KernelIdeal.EdgeArrays

open Cert.KernelIdeal Cert.KernelIdeal.Gen Idealize.ShloMosaic Idealize.ShloMosaic.TcCoe Idealize.ShloMosaic.ValueIdx Cert.Layer
open Idealize.ShloMosaic.Pipeline (Dat)

variable (V : (c : Dev nD) → (b : Ref sig .tc) → Buf (Elt Ideal) ((c : Thread nD τ).loc b))

/-- The printed index maps over the grid: the edge-wise windows sit at block row t, every other block index is 0. -/
theorem idx_facts : ∀ t : Fin cfg0.N,
    win0_11.index t (0 : Fin 2) = t.val ∧ win0_11.index t (1 : Fin 2) = 0
    ∧ win0_12.index t (0 : Fin 2) = t.val ∧ win0_12.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-- Row p of block t is row 4000·t + p of the array. -/
def rowOf (t : Fin cfg0.N) (p : Fin 4000) : Fin 800000 :=
  ⟨t.val * 4000 + p.val, by
    have ht : t.val < 200 := lt_of_lt_of_eq t.isLt N_0
    have hp : p.val < 4000 := p.isLt
    omega⟩

/-! ## The input blocks read where the rows say -/

theorem blk0 (c : Dev nD) (t : Fin cfg0.N) (p : Fin 4000) (k : Fin 128) :
    iblk0 V c 0 t (ix2 p k) = V c (Pipeline.arrRef spec0 0) (ix2 (rowOf t p) k) := by
  show V c (Pipeline.arrRef spec0 0) (((cfg0.win 0).blk t).view.emb (ix2 p k)) = _
  refine congrArg _ (funext fun a => Fin.ext ?_)
  obtain ⟨-, -, -, -, e0, e1, -⟩ := idx_facts t
  match a with
  | ⟨0, _⟩ => show win0_0.index t (0 : Fin 2) * 4000 + 1 * p.val = t.val * 4000 + p.val; omega
  | ⟨1, _⟩ => show win0_0.index t (1 : Fin 2) * 128 + 1 * k.val = k.val; omega

theorem blk1 (c : Dev nD) (t : Fin cfg0.N) (p : Fin 4000) (k : Fin 128) :
    iblk0 V c 1 t (ix2 p k) = V c (Pipeline.arrRef spec0 1) (ix2 (rowOf t p) k) := by
  show V c (Pipeline.arrRef spec0 1) (((cfg0.win 1).blk t).view.emb (ix2 p k)) = _
  refine congrArg _ (funext fun a => Fin.ext ?_)
  obtain ⟨-, -, -, -, -, -, e0, e1, -⟩ := idx_facts t
  match a with
  | ⟨0, _⟩ => show win0_1.index t (0 : Fin 2) * 4000 + 1 * p.val = t.val * 4000 + p.val; omega
  | ⟨1, _⟩ => show win0_1.index t (1 : Fin 2) * 128 + 1 * k.val = k.val; omega

theorem blk2 (c : Dev nD) (t : Fin cfg0.N) (p : Fin 4000) (l : Fin 3) :
    iblk0 V c 2 t (ix2 p l) = V c (Pipeline.arrRef spec0 2) (ix2 (rowOf t p) l) := by
  show V c (Pipeline.arrRef spec0 2) (((cfg0.win 2).blk t).view.emb (ix2 p l)) = _
  refine congrArg _ (funext fun a => Fin.ext ?_)
  obtain ⟨-, -, -, -, -, -, -, -, e0, e1, -⟩ := idx_facts t
  match a with
  | ⟨0, _⟩ => show win0_2.index t (0 : Fin 2) * 4000 + 1 * p.val = t.val * 4000 + p.val; omega
  | ⟨1, _⟩ => show win0_2.index t (1 : Fin 2) * 3 + 1 * l.val = l.val; omega

theorem blk3 (c : Dev nD) (t : Fin cfg0.N) (k j : Fin 128) :
    iblk0 V c 3 t (ix2 k j) = V c (Pipeline.arrRef spec0 3) (ix2 k j) := by
  show V c (Pipeline.arrRef spec0 3) (((cfg0.win 3).blk t).view.emb (ix2 k j)) = _
  refine congrArg _ (funext fun a => Fin.ext ?_)
  obtain ⟨-, -, -, -, -, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * j.val = j.val; omega

theorem blk4 (c : Dev nD) (t : Fin cfg0.N) (k j : Fin 128) :
    iblk0 V c 4 t (ix2 k j) = V c (Pipeline.arrRef spec0 4) (ix2 k j) := by
  show V c (Pipeline.arrRef spec0 4) (((cfg0.win 4).blk t).view.emb (ix2 k j)) = _
  refine congrArg _ (funext fun a => Fin.ext ?_)
  obtain ⟨-, -, -, -, -, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 128 + 1 * j.val = j.val; omega

theorem blk5 (c : Dev nD) (t : Fin cfg0.N) (u : Fin 1) (j : Fin 128) :
    iblk0 V c 5 t (ix2 u j) = V c (Pipeline.arrRef spec0 5) (ix2 u j) := by
  show V c (Pipeline.arrRef spec0 5) (((cfg0.win 5).blk t).view.emb (ix2 u j)) = _
  refine congrArg _ (funext fun a => Fin.ext ?_)
  obtain ⟨-, -, -, -, -, -, -, -, -, -, -, -, -, -, e0, e1, -⟩ := idx_facts t
  match a with
  | ⟨0, _⟩ => show win0_5.index t (0 : Fin 2) * 1 + 1 * u.val = u.val; omega
  | ⟨1, _⟩ => show win0_5.index t (1 : Fin 2) * 128 + 1 * j.val = j.val; omega

theorem blk6 (c : Dev nD) (t : Fin cfg0.N) (j : Fin 128) :
    iblk0 V c 6 t (ix1 j) = V c (Pipeline.arrRef spec0 6) (ix1 j) := by
  show V c (Pipeline.arrRef spec0 6) (((cfg0.win 6).blk t).view.emb (ix1 j)) = _
  refine congrArg _ (funext fun a => Fin.ext ?_)
  obtain ⟨-, -, -, -, -, -, -, -, -, -, -, -, -, -, -, -, e0, -⟩ := idx_facts t
  match a with
  | ⟨0, _⟩ => show win0_6.index t (0 : Fin 1) * 128 + 1 * j.val = j.val; omega

theorem blk7 (c : Dev nD) (t : Fin cfg0.N) (k j : Fin 128) :
    iblk0 V c 7 t (ix2 k j) = V c (Pipeline.arrRef spec0 7) (ix2 k j) := by
  show V c (Pipeline.arrRef spec0 7) (((cfg0.win 7).blk t).view.emb (ix2 k j)) = _
  refine congrArg _ (funext fun a => Fin.ext ?_)
  obtain ⟨-, -, -, -, -, -, -, -, -, -, -, -, -, -, -, -, -, e0, e1, -⟩ := idx_facts t
  match a with
  | ⟨0, _⟩ => show win0_7.index t (0 : Fin 2) * 128 + 1 * k.val = k.val; omega
  | ⟨1, _⟩ => show win0_7.index t (1 : Fin 2) * 128 + 1 * j.val = j.val; omega

theorem blk8 (c : Dev nD) (t : Fin cfg0.N) (j : Fin 128) :
    iblk0 V c 8 t (ix1 j) = V c (Pipeline.arrRef spec0 8) (ix1 j) := by
  show V c (Pipeline.arrRef spec0 8) (((cfg0.win 8).blk t).view.emb (ix1 j)) = _
  refine congrArg _ (funext fun a => Fin.ext ?_)
  obtain ⟨-, -, -, -, -, -, -, -, -, -, -, -, -, -, -, -, -, -, -, e0, -⟩ := idx_facts t
  match a with
  | ⟨0, _⟩ => show win0_8.index t (0 : Fin 1) * 128 + 1 * j.val = j.val; omega

theorem blk9 (c : Dev nD) (t : Fin cfg0.N) (k : Fin 128) (u : Fin 1) :
    iblk0 V c 9 t (ix2 k u) = V c (Pipeline.arrRef spec0 9) (ix2 k u) := by
  show V c (Pipeline.arrRef spec0 9) (((cfg0.win 9).blk t).view.emb (ix2 k u)) = _
  refine congrArg _ (funext fun a => Fin.ext ?_)
  obtain ⟨-, -, -, -, -, -, -, -, -, -, -, -, -, -, -, -, -, -, -, -, e0, e1, -⟩ := idx_facts t
  match a with
  | ⟨0, _⟩ => show win0_9.index t (0 : Fin 2) * 128 + 1 * k.val = k.val; omega
  | ⟨1, _⟩ => show win0_9.index t (1 : Fin 2) * 1 + 1 * u.val = u.val; omega

theorem blk10 (c : Dev nD) (t : Fin cfg0.N) (u : Fin 1) :
    iblk0 V c 10 t (ix1 u) = V c (Pipeline.arrRef spec0 10) (ix1 u) := by
  show V c (Pipeline.arrRef spec0 10) (((cfg0.win 10).blk t).view.emb (ix1 u)) = _
  refine congrArg _ (funext fun a => Fin.ext ?_)
  obtain ⟨-, -, -, -, -, -, -, -, -, -, -, -, -, -, -, -, -, -, -, -, -, -, e0⟩ := idx_facts t
  match a with
  | ⟨0, _⟩ => show win0_10.index t (0 : Fin 1) * 1 + 1 * u.val = u.val; omega

/-! ## The messages (window 11) -/

/-- The messages as one function of the arrays the kernel finds on entry. -/
abbrev msgs (c : Dev nD) : S800000x128.Idx → EReal :=
  msgArr (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (V c (Pipeline.arrRef spec0 6)) (V c (Pipeline.arrRef spec0 7)) (V c (Pipeline.arrRef spec0 8))

theorem emb11 (t : Fin cfg0.N) (p : Fin 4000) (h : Fin 128) :
    ((cfg0.win 11).blk t).view.emb (ix2 p h) = ix2 (rowOf t p) h := by
  refine funext fun a => Fin.ext ?_
  obtain ⟨e0, e1, -⟩ := idx_facts t
  match a with
  | ⟨0, _⟩ => show win0_11.index t (0 : Fin 2) * 4000 + 1 * p.val = t.val * 4000 + p.val; omega
  | ⟨1, _⟩ => show win0_11.index t (1 : Fin 2) * 128 + 1 * h.val = h.val; omega

/-- The stored block at a block index is the function at the array index the block puts it at. -/
theorem core11 (c : Dev nD) (t : Fin cfg0.N) (y : S4000x128.Idx) :
    out0_11 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) y
      = msgs V c (((cfg0.win 11).blk t).view.emb y) := by
  obtain ⟨p, h, rfl⟩ : ∃ (p : Fin 4000) (h : Fin 128), y = ix2 p h := ⟨y 0, y 1, eq_ix2 y⟩
  rw [emb11]
  refine (EdgeBlock.msg_block (iblk0 V c 0 t) (iblk0 V c 1 t) (iblk0 V c 2 t) (iblk0 V c 3 t) (iblk0 V c 4 t)
    (iblk0 V c 5 t) (iblk0 V c 6 t) (iblk0 V c 7 t) (iblk0 V c 8 t) (iblk0 V c 9 t) (iblk0 V c 10 t) p h).trans ?_
  simp only [blk0 V c t, blk1 V c t, blk2 V c t, blk3 V c t, blk4 V c t, blk5 V c t, blk6 V c t, blk7 V c t, blk8 V c t]
  rfl

theorem flushed11_eq (c : Dev nD) (t : Fin cfg0.N) :
    (dat0 V c).flushed 11 t = ((cfg0.win 11).blk t).view.read (Elt Ideal) (msgs V c) := by
  show (cfg0.win 11).cut (grid0.coords t) ((dat0 V c).after 11 t) = _
  rw [after0_11]
  funext j
  exact core11 V c t j

theorem mem_blk11 (t : Fin cfg0.N) (i : S800000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole main_v37_0).slice (win0_11.rect t)).set ↔ _
  rw [View.set_slice_whole, Rect.mem_set_unit]
  exact Iff.rfl

theorem cover11 (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  have hN : cfg0.N = 200 := N_0
  let t : Fin cfg0.N := ⟨(i 0).val / 4000, by rw [hN]; omega⟩
  have htv : t.val = (i 0).val / 4000 := rfl
  obtain ⟨e0, e1, -⟩ := idx_facts t
  refine ⟨t, flush0_11 t, ?_⟩
  rw [mem_blk11]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 128 ≤ (i 1).val ∧ (i 1).val < win0_11.index t (1 : Fin 2) * 128 + 128; omega

/-- The message array after the region. -/
theorem msgs_final (c : Dev nD) : (dat0 V c).arrAt 11 cfg0.N = msgs V c :=
  (dat0 V c).arrAt_eq_of_cover 11 (msgs V c) (fun t _ => flushed11_eq V c t) (cover11)

/-! ## The weighted differences (window 12) -/

abbrev vecs (c : Dev nD) : S800000x3.Idx → EReal :=
  vecArr (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (V c (Pipeline.arrRef spec0 6)) (V c (Pipeline.arrRef spec0 7)) (V c (Pipeline.arrRef spec0 8))
    (V c (Pipeline.arrRef spec0 9)) (V c (Pipeline.arrRef spec0 10))

theorem emb12 (t : Fin cfg0.N) (p : Fin 4000) (l : Fin 3) :
    ((cfg0.win 12).blk t).view.emb (ix2 p l) = ix2 (rowOf t p) l := by
  refine funext fun a => Fin.ext ?_
  obtain ⟨-, -, e0, e1, -⟩ := idx_facts t
  match a with
  | ⟨0, _⟩ => show win0_12.index t (0 : Fin 2) * 4000 + 1 * p.val = t.val * 4000 + p.val; omega
  | ⟨1, _⟩ => show win0_12.index t (1 : Fin 2) * 3 + 1 * l.val = l.val; omega

theorem core12 (c : Dev nD) (t : Fin cfg0.N) (y : S4000x3.Idx) :
    out0_12 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) y
      = vecs V c (((cfg0.win 12).blk t).view.emb y) := by
  obtain ⟨p, l, rfl⟩ : ∃ (p : Fin 4000) (l : Fin 3), y = ix2 p l := ⟨y 0, y 1, eq_ix2 y⟩
  rw [emb12]
  refine (EdgeBlock.vec_block (iblk0 V c 0 t) (iblk0 V c 1 t) (iblk0 V c 2 t) (iblk0 V c 3 t) (iblk0 V c 4 t)
    (iblk0 V c 5 t) (iblk0 V c 6 t) (iblk0 V c 7 t) (iblk0 V c 8 t) (iblk0 V c 9 t) (iblk0 V c 10 t) p l).trans ?_
  simp only [blk0 V c t, blk1 V c t, blk2 V c t, blk3 V c t, blk4 V c t, blk5 V c t, blk6 V c t, blk7 V c t, blk8 V c t,
    blk9 V c t, blk10 V c t]
  rfl

theorem flushed12_eq (c : Dev nD) (t : Fin cfg0.N) :
    (dat0 V c).flushed 12 t = ((cfg0.win 12).blk t).view.read (Elt Ideal) (vecs V c) := by
  show (cfg0.win 12).cut (grid0.coords t) ((dat0 V c).after 12 t) = _
  rw [after0_12]
  funext j
  exact core12 V c t j

theorem mem_blk12 (t : Fin cfg0.N) (i : S800000x3.Idx) :
    i ∈ ((cfg0.win 12).blk t).view.set ↔ ∀ a : Fin 2, win0_12.index t a * S4000x3.size a ≤ (i a).val ∧ (i a).val < win0_12.index t a * S4000x3.size a + S4000x3.size a := by
  show i ∈ ((View.whole main_v37_1).slice (win0_12.rect t)).set ↔ _
  rw [View.set_slice_whole, Rect.mem_set_unit]
  exact Iff.rfl

theorem cover12 (i : S800000x3.Idx) :
    ∃ t : Fin cfg0.N, (cfg0.win 12).flush t = true ∧ i ∈ ((cfg0.win 12).blk t).view.set := by
  have hi0 : (i 0).val < 800000 := (i 0).isLt
  have hi1 : (i 1).val < 3 := (i 1).isLt
  have hN : cfg0.N = 200 := N_0
  let t : Fin cfg0.N := ⟨(i 0).val / 4000, by rw [hN]; omega⟩
  have htv : t.val = (i 0).val / 4000 := rfl
  obtain ⟨-, -, e0, e1, -⟩ := idx_facts t
  refine ⟨t, flush0_12 t, ?_⟩
  rw [mem_blk12]
  intro a
  match a with
  | ⟨0, _⟩ => show win0_12.index t (0 : Fin 2) * 4000 ≤ (i 0).val ∧ (i 0).val < win0_12.index t (0 : Fin 2) * 4000 + 4000; omega
  | ⟨1, _⟩ => show win0_12.index t (1 : Fin 2) * 3 ≤ (i 1).val ∧ (i 1).val < win0_12.index t (1 : Fin 2) * 3 + 3; omega

/-- The array of weighted differences after the region. -/
theorem vecs_final (c : Dev nD) : (dat0 V c).arrAt 12 cfg0.N = vecs V c :=
  (dat0 V c).arrAt_eq_of_cover 12 (vecs V c) (fun t _ => flushed12_eq V c t) (cover12)

end Cert.KernelIdeal.EdgeArrays

end
-- ==== Proof.NodeBlock.lean ====
/-
  What the node kernel stores for one block of 5000 nodes, entry by entry, over the extended reals.

  The body holds the block's feature rows and aggregated-message rows (both 5000 × 128) and the whole weights, the
  first weight matrix already cut into its two bands. Reading each product as a sum over the contracted axis and each
  bias broadcast as a repeated row, the stored block at (p, q) is the row function `Layer.nodeOut` of row p.
-/
import proofs.«100272_j18708877542146_2_alg».proof.Proof.Gen.KernelIdeal.Frame
import proofs.«100272_j18708877542146_2_alg».proof.Proof.LayerSpec
import proofs.«100272_j18708877542146_2_alg».proof.Proof.LibPlainDot
import Idealize.ShloMosaic.Lib.ValueIdx
import Idealize.ShloMosaic.Lib.ValueLayout
import Idealize.ShloMosaic.Lib.Pipeline.Value

set_option maxRecDepth 16384

noncomputable section

namespace Cert.KernelIdeal.NodeBlock

open Cert.KernelIdeal Idealize.ShloMosaic Idealize.ShloMosaic.ValueIdx Cert.Layer

/-- A 5000-row block times a 128 × 128 weight, into a zero accumulator, at (p, q). -/
theorem mm_block {φ₁ φ₂ : FTy} (X : FVec Ideal S5000x128 φ₁) (W : FVec Ideal S128x128 φ₂) (p : Fin 5000) (q : Fin 128) :
    matmul dot_S5000x128_S128x128_S5000x128_1_0_0_1_n_n none X W (constant (F := Ideal) S5000x128 .f32 0x00000000#32) (ix2 p q)
      = ∑ k : Fin 128, X (ix2 p k) * W (ix2 k q) :=
  Cert.Lib.matmul_zero_apply Facts₀.dot_S5000x128_S128x128_S5000x128_1_0_0_1_n_n_wf none X W p q

/-- A vector [128] laid as a row and spread over 5000 rows. -/
theorem vec_spread (b : FVec Ideal S128 .f32) (p : Fin 5000) (j : Fin 128) :
    broadcastTo S5000x128 (shapeCast S1x128 b Facts₀.shapeCasts_S128_S1x128) Facts₀.broadcasts_S1x128_S5000x128 (ix2 p j)
      = b (ix1 j) := by
  rw [broadcastTo_1b_ab_apply, shapeCast_a_1a_apply]

/-- The hidden layer of the block's row p, as the body spells it. -/
theorem hidden_block (X Mi : FVec Ideal S5000x128 .bf16) (Wa Wb : FVec Ideal S128x128 .bf16) (b1 : FVec Ideal S128 .f32)
    (p : Fin 5000) (j : Fin 128) :
    maximumf
        (addf
          (addf (matmul dot_S5000x128_S128x128_S5000x128_1_0_0_1_n_n none X Wa (constant (F := Ideal) S5000x128 .f32 0x00000000#32))
            (matmul dot_S5000x128_S128x128_S5000x128_1_0_0_1_n_n none Mi Wb (constant (F := Ideal) S5000x128 .f32 0x00000000#32)))
          (broadcastTo S5000x128 (shapeCast S1x128 b1 Facts₀.shapeCasts_S128_S1x128) Facts₀.broadcasts_S1x128_S5000x128))
        (broadcast S5000x128 (Scalar.ofBits (F := Ideal) .f32 0x00000000#32)) (ix2 p j)
      = nodeHidden (fun k => X (ix2 p k)) (fun k => Mi (ix2 p k)) (fun k j => Wa (ix2 k j)) (fun k j => Wb (ix2 k j))
          (fun j => b1 (ix1 j)) j := by
  rw [maximumf_apply, addf_apply, addf_apply, mm_block, mm_block, vec_spread]
  rfl

/-- The stored value at (p, q). -/
theorem pay1_apply (v0 : Vec Ideal S5000x128 .f32) (v2 : Vec Ideal S128x128 .f32) (v6 : Vec Ideal S5000x128 .f32)
    (v9 : Vec Ideal S128x128 .f32) (v14 : Vec Ideal S128 .f32) (v20 : Vec Ideal S128x128 .f32) (v24 : Vec Ideal S128 .f32)
    (p : Fin 5000) (q : Fin 128) :
    Gen.k1_pay1 (F := Ideal) v0 v2 v6 v9 v14 v20 v24 (ix2 p q)
      = nodeOut (fun k => v0 (ix2 p k)) (fun k => v6 (ix2 p k)) (fun k j => v2 (ix2 k j)) (fun k j => v9 (ix2 k j))
          (fun j => v14 (ix1 j)) (fun j q => v20 (ix2 j q)) (fun q => v24 (ix1 q)) q := by
  unfold Gen.k1_pay1 nodeOut
  simp only [shapeCast_self]
  rw [addf_apply, mm_block, vec_spread]
  refine congrArg (fun z => z + v24 (ix1 q)) (Finset.sum_congr rfl fun j _ => ?_)
  rw [truncf_apply, truncf_apply, hidden_block]
  rfl

theorem hz2 : (![0, 0] : Fin 2 → Nat) = fun _ => 0 := funext fun a => by match a with | ⟨0, _⟩ => rfl | ⟨1, _⟩ => rfl
theorem hz1 : (![0] : Fin 1 → Nat) = fun _ => 0 := funext fun a => by match a with | ⟨0, _⟩ => rfl

/-- The block the body leaves, at (p, q). -/
theorem out_block (x0 x1 : Vec Ideal S5000x128 .f32) (x2 x3 : Vec Ideal S128x128 .f32) (x4 : Vec Ideal S128 .f32)
    (x5 : Vec Ideal S128x128 .f32) (x6 : Vec Ideal S128 .f32) (p : Fin 5000) (q : Fin 128) :
    Gen.out1_7 (F := Ideal) x0 x1 x2 x3 x4 x5 x6 (ix2 p q)
      = nodeOut (fun k => x0 (ix2 p k)) (fun k => x1 (ix2 p k)) (fun k j => x2 (ix2 k j)) (fun k j => x3 (ix2 k j))
          (fun j => x4 (ix1 j)) (fun j q => x5 (ix2 j q)) (fun q => x6 (ix1 q)) q := by
  unfold Gen.out1_7
  rw [View.canon_unit_zero hz2]
  simp only [View.ld_unit_zero (S := S5000x128) hz2, View.ld_unit_zero (S := S128x128) hz2, View.ld_unit_zero (S := S128) hz1]
  exact pay1_apply x0 x2 x1 x3 x4 x5 x6 p q

end Cert.KernelIdeal.NodeBlock

end
-- ==== Proof.NodeArrays.lean ====
/-
  From blocks to the array, for the node kernel: what its result array holds when it has run over all 10 blocks.

  Grid point t works on rows 5000·t … 5000·t + 4999 of the node features, of the aggregated messages and of the
  result, and on the whole of every weight; so the block it writes back is the restriction to those rows of
  `Layer.nodeArr` of the arrays found on entry, and the 10 blocks tile the 50000 rows (row r lies in block r / 5000).
  The entry contents `V` are a parameter.
-/
import proofs.«100272_j18708877542146_2_alg».proof.Proof.Gen.KernelIdeal.Frame
import proofs.«100272_j18708877542146_2_alg».proof.Proof.LayerSpec
import proofs.«100272_j18708877542146_2_alg».proof.Proof.NodeBlock
import Idealize.ShloMosaic.Lib.ValueIdx
import Idealize.ShloMosaic.Lib.Pipeline.Value

set_option maxRecDepth 16384

noncomputable section

namespace Cert.KernelIdeal.NodeArrays

open Cert.KernelIdeal Cert.KernelIdeal.Gen Idealize.ShloMosaic Idealize.ShloMosaic.TcCoe Idealize.ShloMosaic.ValueIdx Cert.Layer
open Idealize.ShloMosaic.Pipeline (Dat)

variable (V : (c : Dev nD) → (b : Ref sig .tc) → Buf (Elt Ideal) ((c : Thread nD τ).loc b))

/-- The printed index maps over the grid: the node-wise windows sit at block row t, every other block index is 0. -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 :=
  (by decide +kernel : ∀ t : Fin grid1.N, _)

/-- Row p of block t is row 5000·t + p of the array. -/
def rowOf (t : Fin cfg1.N) (p : Fin 5000) : Fin 50000 :=
  ⟨t.val * 5000 + p.val, by
    have ht : t.val < 10 := lt_of_lt_of_eq t.isLt N_1
    have hp : p.val < 5000 := p.isLt
    omega⟩

theorem blk0 (c : Dev nD) (t : Fin cfg1.N) (p : Fin 5000) (k : Fin 128) :
    iblk1 V c 0 t (ix2 p k) = V c (Pipeline.arrRef spec1 0) (ix2 (rowOf t p) k) := by
  show V c (Pipeline.arrRef spec1 0) (((cfg1.win 0).blk t).view.emb (ix2 p k)) = _
  refine congrArg _ (funext fun a => Fin.ext ?_)
  obtain ⟨-, -, e0, e1, -⟩ := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

theorem blk1 (c : Dev nD) (t : Fin cfg1.N) (p : Fin 5000) (k : Fin 128) :
    iblk1 V c 1 t (ix2 p k) = V c (Pipeline.arrRef spec1 1) (ix2 (rowOf t p) k) := by
  show V c (Pipeline.arrRef spec1 1) (((cfg1.win 1).blk t).view.emb (ix2 p k)) = _
  refine congrArg _ (funext fun a => Fin.ext ?_)
  obtain ⟨-, -, -, -, e0, e1, -⟩ := idx_facts t
  match a with
  | ⟨0, _⟩ => show win1_1.index t (0 : Fin 2) * 5000 + 1 * p.val = t.val * 5000 + p.val; omega
  | ⟨1, _⟩ => show win1_1.index t (1 : Fin 2) * 128 + 1 * k.val = k.val; omega

theorem blk2 (c : Dev nD) (t : Fin cfg1.N) (k j : Fin 128) :
    iblk1 V c 2 t (ix2 k j) = V c (Pipeline.arrRef spec1 2) (ix2 k j) := by
  show V c (Pipeline.arrRef spec1 2) (((cfg1.win 2).blk t).view.emb (ix2 k j)) = _
  refine congrArg _ (funext fun a => Fin.ext ?_)
  obtain ⟨-, -, -, -, -, -, e0, e1, -⟩ := idx_facts t
  match a with
  | ⟨0, _⟩ => show win1_2.index t (0 : Fin 2) * 128 + 1 * k.val = k.val; omega
  | ⟨1, _⟩ => show win1_2.index t (1 : Fin 2) * 128 + 1 * j.val = j.val; omega

theorem blk3 (c : Dev nD) (t : Fin cfg1.N) (k j : Fin 128) :
    iblk1 V c 3 t (ix2 k j) = V c (Pipeline.arrRef spec1 3) (ix2 k j) := by
  show V c (Pipeline.arrRef spec1 3) (((cfg1.win 3).blk t).view.emb (ix2 k j)) = _
  refine congrArg _ (funext fun a => Fin.ext ?_)
  obtain ⟨-, -, -, -, -, -, -, -, e0, e1, -⟩ := idx_facts t
  match a with
  | ⟨0, _⟩ => show win1_3.index t (0 : Fin 2) * 128 + 1 * k.val = k.val; omega
  | ⟨1, _⟩ => show win1_3.index t (1 : Fin 2) * 128 + 1 * j.val = j.val; omega

theorem blk4 (c : Dev nD) (t : Fin cfg1.N) (j : Fin 128) :
    iblk1 V c 4 t (ix1 j) = V c (Pipeline.arrRef spec1 4) (ix1 j) := by
  show V c (Pipeline.arrRef spec1 4) (((cfg1.win 4).blk t).view.emb (ix1 j)) = _
  refine congrArg _ (funext fun a => Fin.ext ?_)
  obtain ⟨-, -, -, -, -, -, -, -, -, -, e0, -⟩ := idx_facts t
  match a with
  | ⟨0, _⟩ => show win1_4.index t (0 : Fin 1) * 128 + 1 * j.val = j.val; omega

theorem blk5 (c : Dev nD) (t : Fin cfg1.N) (k j : Fin 128) :
    iblk1 V c 5 t (ix2 k j) = V c (Pipeline.arrRef spec1 5) (ix2 k j) := by
  show V c (Pipeline.arrRef spec1 5) (((cfg1.win 5).blk t).view.emb (ix2 k j)) = _
  refine congrArg _ (funext fun a => Fin.ext ?_)
  obtain ⟨-, -, -, -, -, -, -, -, -, -, -, e0, e1, -⟩ := idx_facts t
  match a with
  | ⟨0, _⟩ => show win1_5.index t (0 : Fin 2) * 128 + 1 * k.val = k.val; omega
  | ⟨1, _⟩ => show win1_5.index t (1 : Fin 2) * 128 + 1 * j.val = j.val; omega

theorem blk6 (c : Dev nD) (t : Fin cfg1.N) (j : Fin 128) :
    iblk1 V c 6 t (ix1 j) = V c (Pipeline.arrRef spec1 6) (ix1 j) := by
  show V c (Pipeline.arrRef spec1 6) (((cfg1.win 6).blk t).view.emb (ix1 j)) = _
  refine congrArg _ (funext fun a => Fin.ext ?_)
  obtain ⟨-, -, -, -, -, -, -, -, -, -, -, -, -, e0⟩ := idx_facts t
  match a with
  | ⟨0, _⟩ => show win1_6.index t (0 : Fin 1) * 128 + 1 * j.val = j.val; omega

/-- The new node features as one function of the arrays the kernel finds on entry. -/
abbrev outs (c : Dev nD) : S50000x128.Idx → EReal :=
  nodeArr (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6))

theorem emb7 (t : Fin cfg1.N) (p : Fin 5000) (q : Fin 128) :
    ((cfg1.win 7).blk t).view.emb (ix2 p q) = ix2 (rowOf t p) q := by
  refine funext fun a => Fin.ext ?_
  obtain ⟨e0, e1, -⟩ := idx_facts t
  match a with
  | ⟨0, _⟩ => show win1_7.index t (0 : Fin 2) * 5000 + 1 * p.val = t.val * 5000 + p.val; omega
  | ⟨1, _⟩ => show win1_7.index t (1 : Fin 2) * 128 + 1 * q.val = q.val; omega

theorem core7 (c : Dev nD) (t : Fin cfg1.N) (y : S5000x128.Idx) :
    out1_7 (F := Ideal) (iblk1 V c 0 t) (iblk1 V c 1 t) (iblk1 V c 2 t) (iblk1 V c 3 t) (iblk1 V c 4 t) (iblk1 V c 5 t)
        (iblk1 V c 6 t) y
      = outs V c (((cfg1.win 7).blk t).view.emb y) := by
  obtain ⟨p, q, rfl⟩ : ∃ (p : Fin 5000) (q : Fin 128), y = ix2 p q := ⟨y 0, y 1, eq_ix2 y⟩
  rw [emb7]
  refine (NodeBlock.out_block (iblk1 V c 0 t) (iblk1 V c 1 t) (iblk1 V c 2 t) (iblk1 V c 3 t) (iblk1 V c 4 t)
    (iblk1 V c 5 t) (iblk1 V c 6 t) p q).trans ?_
  simp only [blk0 V c t, blk1 V c t, blk2 V c t, blk3 V c t, blk4 V c t, blk5 V c t, blk6 V c t]
  rfl

theorem flushed7_eq (c : Dev nD) (t : Fin cfg1.N) :
    (dat1 V c).flushed 7 t = ((cfg1.win 7).blk t).view.read (Elt Ideal) (outs V c) := by
  show (cfg1.win 7).cut (grid1.coords t) ((dat1 V c).after 7 t) = _
  rw [after1_7]
  funext j
  exact core7 V c t j

theorem mem_blk7 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v49).slice (win1_7.rect t)).set ↔ _
  rw [View.set_slice_whole, Rect.mem_set_unit]
  exact Iff.rfl

theorem cover7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have htv : t.val = (i 0).val / 5000 := rfl
  obtain ⟨e0, e1, -⟩ := idx_facts t
  refine ⟨t, flush1_7 t, ?_⟩
  rw [mem_blk7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The result array after the region. -/
theorem outs_final (c : Dev nD) : (dat1 V c).arrAt 7 cfg1.N = outs V c :=
  (dat1 V c).arrAt_eq_of_cover 7 (outs V c) (fun t _ => flushed7_eq V c t) (cover7)

end Cert.KernelIdeal.NodeArrays

end
-- ==== Proof.LibBandSplit.lean ====
/-
  Sums over an index range cut into bands, and three matrices joined side by side read at an index.

  A sum over the 2n + 1 positions 0 … 2n is the sum over the first n, plus the sum over the next n, plus the last
  term; a sum over 2n positions is the sum over the first n plus the sum over the next n. Only the laws of a commutative
  monoid are used, so the statements hold over the extended reals with no finiteness side condition.

  Three matrices of A, B and C columns joined side by side (a concatenation along axis 1 into T columns): at column
  j < A the join reads the first at column j, at column A + i it reads the second at column i, and at column A + B + i
  it reads the third at column i. Any element type.
-/
import Mathlib.Algebra.BigOperators.Fin
import Idealize.ShloMosaic.Lib.Pipeline.Value
import Idealize.ShloMosaic.Lib.ValueIdx

namespace Cert.Lib

open Idealize.ShloMosaic Idealize.ShloMosaic.ValueIdx

/-- A sum over 2n positions is the sum over the first n plus the sum over the last n. -/
theorem sum_two_bands {M : Type*} [AddCommMonoid M] (n : ℕ) (f : Fin (n + n) → M) :
    ∑ k, f k = (∑ k : Fin n, f ⟨k.val, by have := k.isLt; omega⟩) + (∑ k : Fin n, f ⟨n + k.val, by have := k.isLt; omega⟩) := by
  rw [Fin.sum_univ_add]
  rfl

/-- A sum over 2n + 1 positions is the sum over the first n, plus the sum over the next n, plus the last term. -/
theorem sum_two_bands_and_last {M : Type*} [AddCommMonoid M] (n : ℕ) (f : Fin (n + n + 1) → M) :
    ∑ k, f k = (∑ k : Fin n, f ⟨k.val, by have := k.isLt; omega⟩) + (∑ k : Fin n, f ⟨n + k.val, by have := k.isLt; omega⟩)
      + f ⟨n + n, by omega⟩ := by
  rw [Fin.sum_univ_castSucc, Fin.sum_univ_add]
  rfl

namespace ConcatTriple

variable {α : Type}

/-- Three matrices joined side by side, read in the FIRST one's columns. -/
theorem cols_first {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin A)
    (hi : i.val = j.val) :
    concatenate ⟨2, ![R, T]⟩ 1 [⟨⟨2, ![R, A]⟩, x₁⟩, ⟨⟨2, ![R, B]⟩, x₂⟩, ⟨⟨2, ![R, C]⟩, x₃⟩] h (ix2 r j) = x₁ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 0 (Nat.zero_lt_succ _) ⟨2, ![R, A]⟩ x₁ rfl rfl 0 rfl (ix2 r i)
    (fun b => match b with
      | ⟨0, _⟩ => fun _ => rfl
      | ⟨1, _⟩ => fun hb => absurd rfl hb)
    (by show 0 + i.val = j.val; omega)

/-- Three matrices joined side by side, read in the SECOND one's columns: column A + i of the join is its column i. -/
theorem cols_second {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin B)
    (hi : A + i.val = j.val) :
    concatenate ⟨2, ![R, T]⟩ 1 [⟨⟨2, ![R, A]⟩, x₁⟩, ⟨⟨2, ![R, B]⟩, x₂⟩, ⟨⟨2, ![R, C]⟩, x₃⟩] h (ix2 r j) = x₂ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 1 (Nat.succ_lt_succ (Nat.zero_lt_succ _)) ⟨2, ![R, B]⟩ x₂ rfl rfl A
    (by show A + 0 = A; rfl) (ix2 r i)
    (fun b => match b with
      | ⟨0, _⟩ => fun _ => rfl
      | ⟨1, _⟩ => fun hb => absurd rfl hb)
    hi

/-- Three matrices joined side by side, read in the THIRD one's columns: column A + B + i of the join is its column i. -/
theorem cols_third {R A B C T : Nat} (x₁ : (⟨2, ![R, A]⟩ : Shape).Idx → α) (x₂ : (⟨2, ![R, B]⟩ : Shape).Idx → α)
    (x₃ : (⟨2, ![R, C]⟩ : Shape).Idx → α)
    (h : Shape.Concatenates [⟨2, ![R, A]⟩, ⟨2, ![R, B]⟩, ⟨2, ![R, C]⟩] ⟨2, ![R, T]⟩ 1) (r : Fin R) (j : Fin T) (i : Fin C)
    (hi : A + B + i.val = j.val) :
    concatenate ⟨2, ![R, T]⟩ 1 [⟨⟨2, ![R, A]⟩, x₁⟩, ⟨⟨2, ![R, B]⟩, x₂⟩, ⟨⟨2, ![R, C]⟩, x₃⟩] h (ix2 r j) = x₃ (ix2 r i) :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r j) 2 (Nat.succ_lt_succ (Nat.succ_lt_succ (Nat.zero_lt_succ _))) ⟨2, ![R, C]⟩ x₃ rfl rfl (A + B)
    (by show A + (B + 0) = A + B; rfl) (ix2 r i)
    (fun b => match b with
      | ⟨0, _⟩ => fun _ => rfl
      | ⟨1, _⟩ => fun hb => absurd rfl hb)
    hi

end ConcatTriple

end Cert.Lib
-- ==== Proof.LibConcatPair.lean ====
/-
  Two arrays joined along one axis, read at an index.

  A matrix of A columns joined on its right to a matrix of B columns (a concatenation along axis 1 into T columns): at
  column j < A the joined matrix reads the first at column j, and at column A + i it reads the second at column i.  The same
  for two vectors joined end to end (a concatenation along axis 0 of rank-1 arrays).  Any element type.
-/
import Idealize.ShloMosaic.Lib.Pipeline.Value
import Idealize.ShloMosaic.Lib.ValueIdx

namespace Cert.Lib.ConcatPair

open Idealize.ShloMosaic Idealize.ShloMosaic.ValueIdx

variable {α : Type}

/-- Two matrices joined side by side, read in the FIRST one's columns. -/
theorem cols_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin A) (hi : i.val = j.val) :
    concatenate ⟨2, ![R, T]⟩ 1 [⟨⟨2, ![R, A]⟩, x₁⟩, ⟨⟨2, ![R, B]⟩, x₂⟩] h (ix2 r j) = x₁ (ix2 r i) :=
  concatenate_pair_apply_left (1 : Fin 2) x₁ x₂ h (ix2 r j) rfl (ix2 r i) (fun b => match b with
    | ⟨0, _⟩ => rfl
    | ⟨1, _⟩ => hi)

/-- Two matrices joined side by side, read in the SECOND one's columns: column A + i of the join is its column i. -/
theorem cols_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin B) (hi : i.val + A = j.val) :
    concatenate ⟨2, ![R, T]⟩ 1 [⟨⟨2, ![R, A]⟩, x₁⟩, ⟨⟨2, ![R, B]⟩, x₂⟩] h (ix2 r j) = x₂ (ix2 r i) :=
  concatenate_pair_apply_right (1 : Fin 2) x₁ x₂ h (ix2 r j) rfl rfl (ix2 r i) (fun b => match b with
    | ⟨0, _⟩ => fun _ => rfl
    | ⟨1, _⟩ => fun hb => absurd rfl hb) hi

/-- Two vectors joined end to end, read in the FIRST one's stretch. -/
theorem vec_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin A) (hi : i.val = j.val) :
    concatenate ⟨1, ![T]⟩ 0 [⟨⟨1, ![A]⟩, x₁⟩, ⟨⟨1, ![B]⟩, x₂⟩] h (ix1 j) = x₁ (ix1 i) :=
  concatenate_pair_apply_left (0 : Fin 1) x₁ x₂ h (ix1 j) rfl (ix1 i) (fun b => match b with
    | ⟨0, _⟩ => hi)

/-- Two vectors joined end to end, read in the SECOND one's stretch: position A + i of the join is its position i. -/
theorem vec_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin B) (hi : i.val + A = j.val) :
    concatenate ⟨1, ![T]⟩ 0 [⟨⟨1, ![A]⟩, x₁⟩, ⟨⟨1, ![B]⟩, x₂⟩] h (ix1 j) = x₂ (ix1 i) :=
  concatenate_pair_apply_right (0 : Fin 1) x₁ x₂ h (ix1 j) rfl rfl (ix1 i) (fun b => match b with
    | ⟨0, _⟩ => fun hb => absurd rfl hb) hi

end Cert.Lib.ConcatPair
-- ==== Proof.RefLayers.lean ====
/-
  The reference's three dense stages read entry by entry over the extended reals.

  The reference forms, for every edge e, the row [h_i | h_j | ‖dist‖²] of width 257 by joining three arrays side by
  side, and contracts it with the whole first weight matrix. A sum over 257 positions is the sum over the first 128,
  plus the sum over the next 128, plus the last term — only the commutativity and associativity of addition, which
  the extended reals have — and in each band the joined row reads the array that was put there. So the hidden layer is
  `Layer.edgeHidden` of row e of the three arrays with the weight matrix cut into its bands; the message, the
  scalar weight and the weighted difference follow by reading the remaining products and broadcasts at an index.
  The node stage is the same with the row [x | m_i] of width 256 and two bands.
  The gathered arrays and the aggregated messages stay opaque here: nothing depends on how they were made.
-/
import proofs.«100272_j18708877542146_2_alg».proof.Proof.Gen.ReferenceIdeal.Read
import proofs.«100272_j18708877542146_2_alg».proof.Proof.LayerSpec
import proofs.«100272_j18708877542146_2_alg».proof.Proof.LibBandSplit
import proofs.«100272_j18708877542146_2_alg».proof.Proof.LibConcatPair
import Idealize.ShloMosaic.Lib.ValueIdx
import Idealize.ShloMosaic.PureOps.Ideal.Laws

set_option maxRecDepth 16384

noncomputable section

namespace Cert.ReferenceIdeal.Layers

open Cert.ReferenceIdeal Cert.ReferenceIdeal.Read Idealize.ShloMosaic Idealize.ShloMosaic.ValueIdx Cert.Layer

variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x1, .f32⟩ : BufTy).Contents (Elt Ideal))
  (x8 : (⟨S1, .f32⟩ : BufTy).Contents (Elt Ideal)) (x9 : (⟨S256x128, .f32⟩ : BufTy).Contents (Elt Ideal))
  (x10 : (⟨S128, .f32⟩ : BufTy).Contents (Elt Ideal)) (x11 : (⟨S128x128, .f32⟩ : BufTy).Contents (Elt Ideal))
  (x12 : (⟨S128, .f32⟩ : BufTy).Contents (Elt Ideal))

/-! ## The joined row of an edge, band by band -/

/-- Columns 0–127 of the joined row are the target node's features. -/
theorem joined_first (e : Fin 800000) (j : Fin 128) (k : Fin 128) (hk : k.val < 257) :
    val_main_v36 (F := Ideal) x0 x1 x2 (lidx_main_v37 (ix2 e j) ⟨k.val, hk⟩) = val_main_v17 (F := Ideal) x0 x2 (ix2 e k) := by
  have hi : lidx_main_v37 (ix2 e j) ⟨k.val, hk⟩ = ix2 e (⟨k.val, hk⟩ : Fin 257) :=
    funext fun a => by match a with | ⟨0, _⟩ => rfl | ⟨1, _⟩ => rfl
  rw [hi]; unfold val_main_v36
  exact Cert.Lib.ConcatTriple.cols_first _ _ _ _ e ⟨k.val, hk⟩ k rfl

/-- Columns 128–255 are the source node's features. -/
theorem joined_second (e : Fin 800000) (j : Fin 128) (k : Fin 128) (hk : 128 + k.val < 257) :
    val_main_v36 (F := Ideal) x0 x1 x2 (lidx_main_v37 (ix2 e j) ⟨128 + k.val, hk⟩) = val_main_v10 (F := Ideal) x0 x2 (ix2 e k) := by
  have hi : lidx_main_v37 (ix2 e j) ⟨128 + k.val, hk⟩ = ix2 e (⟨128 + k.val, hk⟩ : Fin 257) :=
    funext fun a => by match a with | ⟨0, _⟩ => rfl | ⟨1, _⟩ => rfl
  rw [hi]; unfold val_main_v36
  exact Cert.Lib.ConcatTriple.cols_second _ _ _ _ e ⟨128 + k.val, hk⟩ k rfl

/-- Column 256 is the squared length of the coordinate difference. -/
theorem joined_last (e : Fin 800000) (j : Fin 128) (h256 : 256 < 257) :
    val_main_v36 (F := Ideal) x0 x1 x2 (lidx_main_v37 (ix2 e j) ⟨256, h256⟩)
      = sqNorm (fun l => val_main_v32 (F := Ideal) x1 x2 (ix2 e l)) := by
  have hi : lidx_main_v37 (ix2 e j) ⟨256, h256⟩ = ix2 e (⟨256, h256⟩ : Fin 257) :=
    funext fun a => by match a with | ⟨0, _⟩ => rfl | ⟨1, _⟩ => rfl
  rw [hi]; unfold val_main_v36
  rw [Cert.Lib.ConcatTriple.cols_third _ _ _ _ e ⟨256, h256⟩ (0 : Fin 1) rfl, val_main_v35_apply, val_main_v34_apply]
  unfold sqNorm
  have hz : ∀ i, (val_main_cst (F := Ideal)) i = 0 := fun i => by
    rw [val_main_cst_apply]; exact Ideal.ofBits_zero_f32
  rw [hz, zero_add]
  refine Finset.sum_congr rfl fun l _ => ?_
  rw [val_main_v33_apply]
  have hl : idx_main_v34 (idx_main_v35 (ix2 e (0 : Fin 1))) l = ix2 e l :=
    funext fun a => by match a with | ⟨0, _⟩ => rfl | ⟨1, _⟩ => rfl
  rw [hl]; rfl

/-! ## The edge stages -/

/-- The hidden layer of edge e. -/
theorem hidden_apply (e : Fin 800000) (j : Fin 128) :
    val_main_v41 (F := Ideal) x0 x1 x2 x3 x4 (ix2 e j)
      = edgeHidden (fun k => val_main_v17 (F := Ideal) x0 x2 (ix2 e k)) (fun k => val_main_v10 (F := Ideal) x0 x2 (ix2 e k))
          (fun l => val_main_v32 (F := Ideal) x1 x2 (ix2 e l))
          (fun k j => x3 (ix2 (⟨k.val, by omega⟩ : Fin 257) j)) (fun k j => x3 (ix2 (⟨128 + k.val, by omega⟩ : Fin 257) j))
          (fun j => x3 (ix2 (⟨256, by omega⟩ : Fin 257) j)) (fun j => x4 (ix1 j)) j := by
  rw [val_main_v41_apply, val_main_v40_apply, val_main_v37_apply, val_main_v39_apply, val_main_v38_apply,
    val_main_call0_v0_apply, val_main_call0_cst_apply]
  unfold edgeHidden
  rw [Cert.Lib.sum_two_bands_and_last 128
    (fun k : Fin 257 => (val_main_v36 (F := Ideal) x0 x1 x2) (lidx_main_v37 (ix2 e j) k) * x3 (ridx_main_v37 (ix2 e j) k))]
  have hr : ∀ (k : Fin 257), ridx_main_v37 (ix2 e j) k = ix2 k j := fun k =>
    funext fun a => by match a with | ⟨0, _⟩ => rfl | ⟨1, _⟩ => rfl
  have hb : idx_main_v38 (idx_main_v39 (ix2 e j)) = ix1 j :=
    funext fun a => by match a with | ⟨0, _⟩ => rfl
  simp only [hr, hb, joined_first, joined_second, joined_last]
  rfl

/-- The message of edge e. -/
theorem msg_apply (e : Fin 800000) (h : Fin 128) :
    val_main_v45 (F := Ideal) x0 x1 x2 x3 x4 x5 x6 (ix2 e h)
      = edgeMsg (fun k => val_main_v17 (F := Ideal) x0 x2 (ix2 e k)) (fun k => val_main_v10 (F := Ideal) x0 x2 (ix2 e k))
          (fun l => val_main_v32 (F := Ideal) x1 x2 (ix2 e l))
          (fun k j => x3 (ix2 (⟨k.val, by omega⟩ : Fin 257) j)) (fun k j => x3 (ix2 (⟨128 + k.val, by omega⟩ : Fin 257) j))
          (fun j => x3 (ix2 (⟨256, by omega⟩ : Fin 257) j)) (fun j => x4 (ix1 j))
          (fun j h => x5 (ix2 j h)) (fun h => x6 (ix1 h)) h := by
  rw [val_main_v45_apply, val_main_v42_apply, val_main_v44_apply, val_main_v43_apply]
  unfold edgeMsg
  have hl : ∀ k : Fin 128, lidx_main_v42 (ix2 e h) k = ix2 e k := fun k =>
    funext fun a => by match a with | ⟨0, _⟩ => rfl | ⟨1, _⟩ => rfl
  have hr : ∀ k : Fin 128, ridx_main_v42 (ix2 e h) k = ix2 k h := fun k =>
    funext fun a => by match a with | ⟨0, _⟩ => rfl | ⟨1, _⟩ => rfl
  have hb : idx_main_v43 (idx_main_v44 (ix2 e h)) = ix1 h :=
    funext fun a => by match a with | ⟨0, _⟩ => rfl
  simp only [hl, hr, hb, hidden_apply]
  rfl

/-- The weighted coordinate difference of edge e. -/
theorem vec_apply (e : Fin 800000) (l : Fin 3) :
    val_main_v51 (F := Ideal) x0 x1 x2 x3 x4 x5 x6 x7 x8 (ix2 e l)
      = edgeVec (fun k => val_main_v17 (F := Ideal) x0 x2 (ix2 e k)) (fun k => val_main_v10 (F := Ideal) x0 x2 (ix2 e k))
          (fun l => val_main_v32 (F := Ideal) x1 x2 (ix2 e l))
          (fun k j => x3 (ix2 (⟨k.val, by omega⟩ : Fin 257) j)) (fun k j => x3 (ix2 (⟨128 + k.val, by omega⟩ : Fin 257) j))
          (fun j => x3 (ix2 (⟨256, by omega⟩ : Fin 257) j)) (fun j => x4 (ix1 j))
          (fun j h => x5 (ix2 j h)) (fun h => x6 (ix1 h)) (fun h => x7 (ix2 h (0 : Fin 1))) (x8 (ix1 (0 : Fin 1))) l := by
  rw [val_main_v51_apply, val_main_v50_apply, val_main_v49_apply, val_main_v46_apply, val_main_v48_apply, val_main_v47_apply]
  unfold edgeVec edgeWeight
  have hl : ∀ k : Fin 128, lidx_main_v46 (idx_main_v50 (ix2 e l)) k = ix2 e k := fun k =>
    funext fun a => by match a with | ⟨0, _⟩ => rfl | ⟨1, _⟩ => rfl
  have hr : ∀ k : Fin 128, ridx_main_v46 (idx_main_v50 (ix2 e l)) k = ix2 k (0 : Fin 1) := fun k =>
    funext fun a => by match a with | ⟨0, _⟩ => rfl | ⟨1, _⟩ => rfl
  have hb : idx_main_v47 (idx_main_v48 (idx_main_v50 (ix2 e l))) = ix1 (0 : Fin 1) :=
    funext fun a => by match a with | ⟨0, _⟩ => rfl
  simp only [hl, hr, hb, msg_apply]
  rfl

/-! ## The node stage -/

/-- The new features of node n, the aggregated messages `val_main_v60` kept opaque. -/
theorem node_apply (n : Fin 50000) (q : Fin 128) :
    val_main_v70 (F := Ideal) x0 x1 x2 x3 x4 x5 x6 x9 x10 x11 x12 (ix2 n q)
      = nodeOut (fun k => x0 (ix2 n k)) (fun k => val_main_v60 (F := Ideal) x0 x1 x2 x3 x4 x5 x6 (ix2 n k))
          (fun k j => x9 (ix2 (⟨k.val, by omega⟩ : Fin 256) j)) (fun k j => x9 (ix2 (⟨128 + k.val, by omega⟩ : Fin 256) j))
          (fun j => x10 (ix1 j)) (fun j q => x11 (ix2 j q)) (fun q => x12 (ix1 q)) q := by
  rw [val_main_v70_apply, val_main_v67_apply, val_main_v69_apply, val_main_v68_apply]
  unfold nodeOut
  have hl : ∀ k : Fin 128, lidx_main_v67 (ix2 n q) k = ix2 n k := fun k =>
    funext fun a => by match a with | ⟨0, _⟩ => rfl | ⟨1, _⟩ => rfl
  have hr : ∀ k : Fin 128, ridx_main_v67 (ix2 n q) k = ix2 k q := fun k =>
    funext fun a => by match a with | ⟨0, _⟩ => rfl | ⟨1, _⟩ => rfl
  have hb : idx_main_v68 (idx_main_v69 (ix2 n q)) = ix1 q :=
    funext fun a => by match a with | ⟨0, _⟩ => rfl
  have hh : ∀ j : Fin 128, val_main_v66 (F := Ideal) x0 x1 x2 x3 x4 x5 x6 x9 x10 (ix2 n j)
      = nodeHidden (fun k => x0 (ix2 n k)) (fun k => val_main_v60 (F := Ideal) x0 x1 x2 x3 x4 x5 x6 (ix2 n k))
          (fun k j => x9 (ix2 (⟨k.val, by omega⟩ : Fin 256) j)) (fun k j => x9 (ix2 (⟨128 + k.val, by omega⟩ : Fin 256) j))
          (fun j => x10 (ix1 j)) j := fun j => by
    rw [val_main_v66_apply, val_main_v65_apply, val_main_v62_apply, val_main_v64_apply, val_main_v63_apply,
      val_main_call1_v0_apply, val_main_call1_cst_apply]
    unfold nodeHidden
    rw [Cert.Lib.sum_two_bands 128
      (fun k : Fin 256 => (val_main_v61 (F := Ideal) x0 x1 x2 x3 x4 x5 x6) (lidx_main_v62 (ix2 n j) k) * x9 (ridx_main_v62 (ix2 n j) k))]
    have hl2 : ∀ k : Fin 256, lidx_main_v62 (ix2 n j) k = ix2 n k := fun k =>
      funext fun a => by match a with | ⟨0, _⟩ => rfl | ⟨1, _⟩ => rfl
    have hr2 : ∀ k : Fin 256, ridx_main_v62 (ix2 n j) k = ix2 k j := fun k =>
      funext fun a => by match a with | ⟨0, _⟩ => rfl | ⟨1, _⟩ => rfl
    have hb2 : idx_main_v63 (idx_main_v64 (ix2 n j)) = ix1 j :=
      funext fun a => by match a with | ⟨0, _⟩ => rfl
    have hc1 : ∀ (k : Fin 128) (hk : k.val < 256), val_main_v61 (F := Ideal) x0 x1 x2 x3 x4 x5 x6 (ix2 n (⟨k.val, hk⟩ : Fin 256)) = x0 (ix2 n k) :=
      fun k hk => by unfold val_main_v61; exact Cert.Lib.ConcatPair.cols_left _ _ _ n ⟨k.val, hk⟩ k rfl
    have hc2 : ∀ (k : Fin 128) (hk : 128 + k.val < 256), val_main_v61 (F := Ideal) x0 x1 x2 x3 x4 x5 x6 (ix2 n (⟨128 + k.val, hk⟩ : Fin 256))
        = val_main_v60 (F := Ideal) x0 x1 x2 x3 x4 x5 x6 (ix2 n k) :=
      fun k hk => by unfold val_main_v61; exact Cert.Lib.ConcatPair.cols_right _ _ _ n ⟨128 + k.val, hk⟩ k (Nat.add_comm _ _)
    simp only [hl2, hr2, hb2, hc1, hc2]
    rfl
  simp only [hl, hr, hb, hh]
  rfl

/-! ## The same, as whole arrays -/

/-- The reference's messages are the message function of its gathered arrays and its weights. -/
theorem msg_eq :
    val_main_v45 (F := Ideal) x0 x1 x2 x3 x4 x5 x6
      = msgArr (val_main_v17 (F := Ideal) x0 x2) (val_main_v10 (F := Ideal) x0 x2) (val_main_v32 (F := Ideal) x1 x2)
          (topRows (by decide) x3) (nextRows (by decide) x3) (row256 (by decide) x3) x4 x5 x6 := by
  funext i
  obtain ⟨e, h, rfl⟩ : ∃ (e : Fin 800000) (h : Fin 128), i = ix2 e h := ⟨i 0, i 1, eq_ix2 i⟩
  exact (msg_apply x0 x1 x2 x3 x4 x5 x6 e h).trans rfl

/-- The reference's weighted differences, likewise. -/
theorem vec_eq :
    val_main_v51 (F := Ideal) x0 x1 x2 x3 x4 x5 x6 x7 x8
      = vecArr (val_main_v17 (F := Ideal) x0 x2) (val_main_v10 (F := Ideal) x0 x2) (val_main_v32 (F := Ideal) x1 x2)
          (topRows (by decide) x3) (nextRows (by decide) x3) (row256 (by decide) x3) x4 x5 x6 x7 x8 := by
  funext i
  obtain ⟨e, l, rfl⟩ : ∃ (e : Fin 800000) (l : Fin 3), i = ix2 e l := ⟨i 0, i 1, eq_ix2 i⟩
  exact (vec_apply x0 x1 x2 x3 x4 x5 x6 x7 x8 e l).trans rfl

/-- The reference's new node features are the node function of the features, the aggregated messages and the weights. -/
theorem node_eq :
    val_main_v70 (F := Ideal) x0 x1 x2 x3 x4 x5 x6 x9 x10 x11 x12
      = nodeArr x0 (val_main_v60 (F := Ideal) x0 x1 x2 x3 x4 x5 x6) (topRows (by decide) x9) (nextRows (by decide) x9) x10 x11 x12 := by
  funext i
  obtain ⟨n, q, rfl⟩ : ∃ (n : Fin 50000) (q : Fin 128), i = ix2 n q := ⟨i 0, i 1, eq_ix2 i⟩
  exact (node_apply x0 x1 x2 x3 x4 x5 x6 x9 x10 x11 x12 n q).trans rfl

end Cert.ReferenceIdeal.Layers

end
-- ==== Proof.Bridge.lean ====
/-
  The kernel's two result arrays ARE the reference's two result stages, as whole arrays of extended reals.

  Both programs gather the same rows by the same indices and scatter-add along the same indices; the only work they
  do differently is the three dense stages, and those are the same row functions (`Layer.msgArr`, `Layer.vecArr`,
  `Layer.nodeArr`) of the same arrays: the kernel computes them block by block with the first weight matrix already
  cut into bands, the reference over whole arrays with the bands inside one contraction. So:
    * what the edge kernel leaves as messages is the reference's message stage, and as weighted differences its
      difference stage, because the arrays it finds on entry are the reference's gathered arrays and the bands of the
      weight;
    * the aggregated messages and the coordinate update are then the same scatter-adds of equal arrays;
    * what the node kernel leaves is the reference's last stage, because it finds the node features, those aggregated
      messages and the bands of the second weight.
  No gather and no scatter is opened: equal operations of equal operands.
-/
import proofs.«100272_j18708877542146_2_alg».proof.Proof.HostEntry
import proofs.«100272_j18708877542146_2_alg».proof.Proof.HostMiddle
import proofs.«100272_j18708877542146_2_alg».proof.Proof.EdgeArrays
import proofs.«100272_j18708877542146_2_alg».proof.Proof.NodeArrays
import proofs.«100272_j18708877542146_2_alg».proof.Proof.RefLayers

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.Layer Cert.ReferenceIdeal.Read

variable (m : (ℓ : Loc nD τ sig) → Buf (Elt Ideal) ℓ) (ρ : Dev nD → PrngReg) (c : Dev nD)

/-! ## The bands of the two first-layer weights, as the kernels find them -/

theorem w1_top : @Eq (FVec Ideal S128x128 .f32) (V1 m ρ c main_v34) (topRows (by decide) ((m ((c : Thread nD τ).loc main_arg3)) : FVec Ideal S257x128 .f32)) :=
  funext fun i => by
    obtain ⟨k, j, rfl⟩ : ∃ (k j : Fin 128), i = ix2 k j := ⟨i 0, i 1, eq_ix2 i⟩
    exact (HostEntry.entry_w1a m ρ c k j).trans rfl

theorem w1_next : @Eq (FVec Ideal S128x128 .f32) (V1 m ρ c main_v35) (nextRows (by decide) ((m ((c : Thread nD τ).loc main_arg3)) : FVec Ideal S257x128 .f32)) :=
  funext fun i => by
    obtain ⟨k, j, rfl⟩ : ∃ (k j : Fin 128), i = ix2 k j := ⟨i 0, i 1, eq_ix2 i⟩
    exact (HostEntry.entry_w1b m ρ c k j).trans rfl

theorem w1_last : @Eq (FVec Ideal S1x128 .f32) (V1 m ρ c main_v36) (row256 (by decide) ((m ((c : Thread nD τ).loc main_arg3)) : FVec Ideal S257x128 .f32)) :=
  funext fun i => by
    obtain ⟨u, j, rfl⟩ : ∃ (u : Fin 1) (j : Fin 128), i = ix2 u j := ⟨i 0, i 1, eq_ix2 i⟩
    have hu : u = 0 := Subsingleton.elim _ _
    subst hu
    exact (HostEntry.entry_w1c m ρ c j).trans rfl

theorem wh_top : @Eq (FVec Ideal S128x128 .f32) (V3 m ρ c main_v47) (topRows (by decide) ((m ((c : Thread nD τ).loc main_arg9)) : FVec Ideal S256x128 .f32)) :=
  funext fun i => by
    obtain ⟨k, j, rfl⟩ : ∃ (k j : Fin 128), i = ix2 k j := ⟨i 0, i 1, eq_ix2 i⟩
    exact (HostMiddle.node_wa m ρ c k j).trans rfl

theorem wh_next : @Eq (FVec Ideal S128x128 .f32) (V3 m ρ c main_v48) (nextRows (by decide) ((m ((c : Thread nD τ).loc main_arg9)) : FVec Ideal S256x128 .f32)) :=
  funext fun i => by
    obtain ⟨k, j, rfl⟩ : ∃ (k j : Fin 128), i = ix2 k j := ⟨i 0, i 1, eq_ix2 i⟩
    exact (HostMiddle.node_wb m ρ c k j).trans rfl

/-! ## The edge region -/

/-- The messages the edge kernel leaves are the reference's message stage. -/
theorem msgs_ref : @Eq (FVec Ideal S800000x128 .f32) ((dat0 (V1 m ρ) c).arrAt 11 cfg0.N)
    (val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [EdgeArrays.msgs_final (V1 m ρ) c, Cert.ReferenceIdeal.Layers.msg_eq]
  show msgArr (V1 m ρ c main_v18) (V1 m ρ c main_v11) (V1 m ρ c main_v33) (V1 m ρ c main_v34) (V1 m ρ c main_v35)
    (V1 m ρ c main_v36) (V1 m ρ c main_arg4) (V1 m ρ c main_arg5) (V1 m ρ c main_arg6) = _
  rw [HostEntry.entry_hi m ρ c, HostEntry.entry_hj m ρ c, HostEntry.entry_dist m ρ c, w1_top m ρ c, w1_next m ρ c, w1_last m ρ c,
    HostEntry.entry_arg4 m ρ c, HostEntry.entry_arg5 m ρ c, HostEntry.entry_arg6 m ρ c]

/-- The weighted differences the edge kernel leaves are the reference's difference stage. -/
theorem vecs_ref : @Eq (FVec Ideal S800000x3 .f32) ((dat0 (V1 m ρ) c).arrAt 12 cfg0.N)
    (val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [EdgeArrays.vecs_final (V1 m ρ) c, Cert.ReferenceIdeal.Layers.vec_eq]
  show vecArr (V1 m ρ c main_v18) (V1 m ρ c main_v11) (V1 m ρ c main_v33) (V1 m ρ c main_v34) (V1 m ρ c main_v35)
    (V1 m ρ c main_v36) (V1 m ρ c main_arg4) (V1 m ρ c main_arg5) (V1 m ρ c main_arg6) (V1 m ρ c main_arg7) (V1 m ρ c main_arg8) = _
  rw [HostEntry.entry_hi m ρ c, HostEntry.entry_hj m ρ c, HostEntry.entry_dist m ρ c, w1_top m ρ c, w1_next m ρ c, w1_last m ρ c,
    HostEntry.entry_arg4 m ρ c, HostEntry.entry_arg5 m ρ c, HostEntry.entry_arg6 m ρ c, HostEntry.entry_arg7 m ρ c,
    HostEntry.entry_arg8 m ρ c]

/-! ## The two results -/

/-- The new coordinates: the same scatter-add, scale and shift of equal arrays. -/
theorem result_x : @Eq (FVec Ideal S50000x3 .f32) (W4 m ρ c (Proc.devRef .tc main_v43))
    (val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [HostMiddle.out_x m ρ c, vecs_ref m ρ c]
  unfold val_main_v57 val_main_v56 val_main_v54
  rfl

/-- The new node features: the node layer of the features and of the same aggregation of equal messages. -/
theorem result_h : @Eq (FVec Ideal S50000x128 .f32) (W4 m ρ c (Proc.devRef .tc main_v49))
    (val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12))) := by
  rw [HostMiddle.out_h m ρ c, NodeArrays.outs_final (V3 m ρ) c, Cert.ReferenceIdeal.Layers.node_eq]
  show nodeArr (V3 m ρ c main_arg0) (V3 m ρ c main_v46) (V3 m ρ c main_v47) (V3 m ρ c main_v48) (V3 m ρ c main_arg10)
    (V3 m ρ c main_arg11) (V3 m ρ c main_arg12) = _
  rw [HostMiddle.node_x m ρ c, HostMiddle.node_mi m ρ c, msgs_ref m ρ c, wh_top m ρ c, wh_next m ρ c, HostMiddle.node_b1 m ρ c,
    HostMiddle.node_w2 m ρ c, HostMiddle.node_b2 m ρ c]
  unfold val_main_v60
  rfl

end Cert.KernelIdeal.Bridge

end
-- ==== Proof.lean ====
/-
  The claim: a message-passing layer on a graph of 50000 nodes and 800000 edges, computed by two tiled kernels among
  gathers and scatter-adds, equals its plain reference over the extended reals.

  Per edge (i ← j) both programs form the message m = W₂·relu(W₁·[h_i | h_j | ‖x_i − x_j‖²] + b₁) + b₂ and the weighted
  difference (x_i − x_j)·(wx·m + bx); per node they add up the incoming messages and differences, move the coordinates
  by the scaled sum, and update the features by a second perceptron of [h | Σ m]. The kernels differ from the reference in
  two ways only, neither visible over the extended reals: they cut each first-layer weight matrix into bands and add the
  partial products (a finite sum split into consecutive stretches: commutativity and associativity of addition, no
  finiteness needed), and they work block by block on narrower float formats (a change of format is the identity
  there). Everything else — the index normalisation, the four gathers, the two scatter-adds, the scale by the same
  constant word — is the same operation of the same operands in both programs.

  The three frames are the generated ones (the reference's is its generated run with the results dropped); nothing was
  rewritten when the kernel was idealized, so `preserves` is trivial; `algebraic` puts the kernel's run with its two
  result arrays named beside the reference's generated run and identifies the arrays (Proof/Bridge.lean).
-/
import proofs.«100272_j18708877542146_2_alg».proof.Defs
import proofs.«100272_j18708877542146_2_alg».proof.Proof.Gen.Kernel
import proofs.«100272_j18708877542146_2_alg».proof.Proof.Gen.Kernel.Skeleton
import proofs.«100272_j18708877542146_2_alg».proof.Proof.Gen.Kernel.Launch
import proofs.«100272_j18708877542146_2_alg».proof.Proof.Gen.Kernel.Points
import proofs.«100272_j18708877542146_2_alg».proof.Proof.Gen.Kernel.Frame
import proofs.«100272_j18708877542146_2_alg».proof.Proof.Gen.KernelIdeal
import proofs.«100272_j18708877542146_2_alg».proof.Proof.Gen.KernelIdeal.Skeleton
import proofs.«100272_j18708877542146_2_alg».proof.Proof.Gen.KernelIdeal.Launch
import proofs.«100272_j18708877542146_2_alg».proof.Proof.Gen.KernelIdeal.Points
import proofs.«100272_j18708877542146_2_alg».proof.Proof.Gen.KernelIdeal.Frame
import proofs.«100272_j18708877542146_2_alg».proof.Proof.Gen.ReferenceIdeal
import proofs.«100272_j18708877542146_2_alg».proof.Proof.Gen.Pre_finite_inputs
import proofs.«100272_j18708877542146_2_alg».proof.Proof.Gen.ReferenceIdeal.Run
import proofs.«100272_j18708877542146_2_alg».proof.Proof.Gen.ReferenceIdeal.Read
import proofs.«100272_j18708877542146_2_alg».proof.Proof.KernelRun
import proofs.«100272_j18708877542146_2_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame: its generated run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Over the extended reals the kernel's two result arrays are the reference's, whenever the two launch memories agree
    on the thirteen arguments. -/
theorem algebraic : Cert.algebraic_KernelIdeal_ReferenceIdeal := by
  intro m ρ m' ρ' _ hagree
  refine ⟨fun c => Cert.KernelIdeal.Gen.W4 m ρ c (Proc.devRef .tc Cert.KernelIdeal.main_v49),
    fun c => Cert.KernelIdeal.Gen.W4 m ρ c (Proc.devRef .tc Cert.KernelIdeal.main_v43),
    Cert.KernelIdeal.ValueRun.run_values (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12⟩ := hagree c
    rw [Cert.ReferenceIdeal.Read.val_main_v70_eq, a0, a1, a2, a3, a4, a5, a6, a9, a10, a11, a12]
    exact (Cert.KernelIdeal.Bridge.result_h m ρ c).symm
  · obtain ⟨a0, a1, a2, a3, a4, a5, a6, a7, a8, a9, a10, a11, a12⟩ := hagree c
    rw [Cert.ReferenceIdeal.Read.val_main_v57_eq, a0, a1, a2, a3, a4, a5, a6, a7, a8]
    exact (Cert.KernelIdeal.Bridge.result_x m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
